-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S64x512 : Shape := ⟨2, ![64, 512]⟩
abbrev S64 : Shape := ⟨1, ![64]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x512 .f32) (main_arg6 : FVec F S64 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x4096x512 .f32) (main_arg1 : FVec F S64x512 .f32) (main_arg2 : FVec F S64 .f32) (main_arg3 : FVec F S64x512 .f32) (main_arg4 : FVec F S64 .f32) (main_arg5 : FVec F S64x512 .f32) (main_arg6 : FVec F S64 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_v13 main_v16
-- ==== Kernel.lean ====
abbrev S4x4096x512 : Shape := ⟨3, ![4, 4096, 512]⟩
abbrev S64x512 : Shape := ⟨2, ![64, 512]⟩
abbrev S64 : Shape := ⟨1, ![64]⟩
abbrev S128x512 : Shape := ⟨2, ![128, 512]⟩
abbrev S512x128 : Shape := ⟨2, ![512, 128]⟩
abbrev S128 : Shape := ⟨1, ![128]⟩
abbrev S1x128 : Shape := ⟨2, ![1, 128]⟩
abbrev S64x1 : Shape := ⟨2, ![64, 1]⟩
abbrev S4x4096x64 : Shape := ⟨3, ![4, 4096, 64]⟩
abbrev S4x64x4096 : Shape := ⟨3, ![4, 64, 4096]⟩
abbrev S1x2048x512 : Shape := ⟨3, ![1, 2048, 512]⟩
abbrev S1x2048x64 : Shape := ⟨3, ![1, 2048, 64]⟩
abbrev S1x64x2048 : Shape := ⟨3, ![1, 64, 2048]⟩
abbrev S2048x512 : Shape := ⟨2, ![2048, 512]⟩
abbrev S2048x128 : Shape := ⟨2, ![2048, 128]⟩
abbrev S2048x64 : Shape := ⟨2, ![2048, 64]⟩
abbrev S64x2048 : Shape := ⟨2, ![64, 2048]⟩
abbrev S1x512x64 : Shape := ⟨3, ![1, 512, 64]⟩
abbrev S1x64x4096 : Shape := ⟨3, ![1, 64, 4096]⟩
abbrev S1x4096x64 : Shape := ⟨3, ![1, 4096, 64]⟩
abbrev S512x64 : Shape := ⟨2, ![512, 64]⟩
abbrev S64x4096 : Shape := ⟨2, ![64, 4096]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 18
  | .vmem => 20
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S128x512, .f32⟩
  | .hbm, ⟨8, _⟩ => ⟨S512x128, .f32⟩
  | .hbm, ⟨9, _⟩ => ⟨S512x128, .bf16⟩
  | .hbm, ⟨10, _⟩ => ⟨S128, .f32⟩
  | .hbm, ⟨11, _⟩ => ⟨S1x128, .f32⟩
  | .hbm, ⟨12, _⟩ => ⟨S64x512, .bf16⟩
  | .hbm, ⟨13, _⟩ => ⟨S64x1, .f32⟩
  | .hbm, ⟨14, _⟩ => ⟨S4x4096x64, .bf16⟩
  | .hbm, ⟨15, _⟩ => ⟨S4x4096x64, .bf16⟩
  | .hbm, ⟨16, _⟩ => ⟨S4x64x4096, .bf16⟩
  | .hbm, ⟨17, _⟩ => ⟨S4x4096x64, .f32⟩
  | .local _ .vmem, ⟨0, _⟩ => ⟨S1x2048x512, .f32⟩
  | .local _ .vmem, ⟨1, _⟩ => ⟨S1x2048x512, .f32⟩
  | .local _ .vmem, ⟨2, _⟩ => ⟨S512x128, .bf16⟩
  | .local _ .vmem, ⟨3, _⟩ => ⟨S1x128, .f32⟩
  | .local _ .vmem, ⟨4, _⟩ => ⟨S64x512, .bf16⟩
  | .local _ .vmem, ⟨5, _⟩ => ⟨S64x1, .f32⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x64x2048, .bf16⟩
  | .local _ .vmem, ⟨11, _⟩ => ⟨S1x64x2048, .bf16⟩
  | .local _ .vmem, ⟨12, _⟩ => ⟨S1x512x64, .bf16⟩
  | .local _ .vmem, ⟨13, _⟩ => ⟨S1x512x64, .bf16⟩
  | .local _ .vmem, ⟨14, _⟩ => ⟨S1x64x4096, .bf16⟩
  | .local _ .vmem, ⟨15, _⟩ => ⟨S1x64x4096, .bf16⟩
  | .local _ .vmem, ⟨16, _⟩ => ⟨S1x4096x64, .bf16⟩
  | .local _ .vmem, ⟨17, _⟩ => ⟨S1x4096x64, .bf16⟩
  | .local _ .vmem, ⟨18, _⟩ => ⟨S1x512x64, .f32⟩
  | .local _ .vmem, ⟨19, _⟩ => ⟨S1x512x64, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S64x512_S64x512_S128x512_d0 : Shape.Concatenates [S64x512, S64x512] S128x512 0
  transposes_S128x512_S512x128_1_0 : S128x512.Transposes [1, 0] S512x128
  bitsLt_bf16_f32 : FTy.bits .bf16 < FTy.bits .f32
  concatenates_S64_S64_S128_d0 : Shape.Concatenates [S64, S64] S128 0
  shapeCasts_S128_S1x128 : S128.ShapeCasts S1x128
  shapeCasts_S64_S64x1 : S64.ShapeCasts S64x1
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S2048x128_o0_0_S2048x64 : S2048x128.Slices ![0, 0] S2048x64
  slices_S2048x128_o0_64_S2048x64 : S2048x128.Slices ![0, 64] S2048x64
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  packedbf16_S1x64x2048_S1x64x2048_0_0_0 : (Rect.unit (s := S1x64x2048) ![0, 0, 0] S1x64x2048.size inb_S1x64x2048_S1x64x2048_0_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S512x4096_S512 : S512x4096.Reduces [1] S512
  shapeCasts_S512_S512x1 : S512.ShapeCasts S512x1
  broadcasts_S512x1_S512x4096 : S512x1.Broadcasts S512x4096
  broadcasts_S512x1_S512x64 : S512x1.Broadcasts S512x64
  shapeCasts_S512x64_S1x512x64 : S512x64.ShapeCasts S1x512x64
  dot_S2048x512_S512x128_S2048x128_1_0_0_1_n_n_wf : DotDims.WF S2048x512 S512x128 S2048x128 [1] [0] [0] [1] [] []
  dot_S64x512_S2048x512_S64x2048_1_1_0_0_n_n_wf : DotDims.WF S64x512 S2048x512 S64x2048 [1] [1] [0] [0] [] []
  dot_S512x64_S64x4096_S512x4096_1_0_0_1_n_n_wf : DotDims.WF S512x64 S64x4096 S512x4096 [1] [0] [0] [1] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x4096x512.size a
  hwx0_0 : ∀ i : grid0.Coords, EltTy.bits .f32 = 32 ∨ (Rect.block (s := S4x4096x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .bf16 = 32 ∨ (Rect.block (s := S512x128) S512x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .bf16 = 32 ∨ (Rect.block (s := S64x512) S64x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S4x4096x64.size a
  hwx0_5 : ∀ i : grid0.Coords, EltTy.bits .bf16 = 32 ∨ (Rect.block (s := S4x4096x64) S1x2048x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2048x64.size a ≤ S4x4096x64.size a
  hwx0_6 : ∀ i : grid0.Coords, EltTy.bits .bf16 = 32 ∨ (Rect.block (s := S4x4096x64) S1x2048x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x2048.size a ≤ S4x64x4096.size a
  hwx0_7 : ∀ i : grid0.Coords, EltTy.bits .bf16 = 32 ∨ (Rect.block (s := S4x64x4096) S1x64x2048.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S4x4096x64.size a
  hwx1_0 : ∀ i : grid1.Coords, EltTy.bits .bf16 = 32 ∨ (Rect.block (s := S4x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x4096.size a ≤ S4x64x4096.size a
  hwx1_1 : ∀ i : grid1.Coords, EltTy.bits .bf16 = 32 ∨ (Rect.block (s := S4x64x4096) S1x64x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S4x4096x64.size a
  hwx1_3 : ∀ i : grid1.Coords, EltTy.bits .f32 = 32 ∨ (Rect.block (s := S4x4096x64) S1x512x64.size (cc1_transform_3 i) (hinb1_3 i)).WholeWords (EltTy.packing .f32)

variable [Facts₀]

def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S64x512_S2048x512_S64x2048_1_1_0_0_n_n : DotDims S64x512 S2048x512 S64x2048 where
  lhsContracting := [1]
  rhsContracting := [1]
  lhsNonContracting := [0]
  rhsNonContracting := [0]
  lhsBatch := []
  rhsBatch := []
  wf := dot_S64x512_S2048x512_S64x2048_1_1_0_0_n_n_wf
def dot_S512x64_S64x4096_S512x4096_1_0_0_1_n_n : DotDims S512x64 S64x4096 S512x4096 where
  lhsContracting := [1]
  rhsContracting := [0]
  lhsNonContracting := [0]
  rhsNonContracting := [1]
  lhsBatch := []
  rhsBatch := []
  wf := dot_S512x64_S64x4096_S512x4096_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S1x2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S1x2048x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_2) S1x64x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v7_0) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7_2) S1x64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_1) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x4096x512 : Shape := ⟨3, ![4, 4096, 512]⟩
abbrev S64x512 : Shape := ⟨2, ![64, 512]⟩
abbrev S64 : Shape := ⟨1, ![64]⟩
abbrev S4x4096x64 : Shape := ⟨3, ![4, 4096, 64]⟩
abbrev S1x1x64 : Shape := ⟨3, ![1, 1, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S64x512, .f32⟩
  | .hbm, ⟨2, _⟩ => ⟨S64, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S4x4096x64, .f32⟩
  | .hbm, ⟨8, _⟩ => ⟨S1x1x64, .f32⟩
  | .hbm, ⟨9, _⟩ => ⟨S4x4096x64, .f32⟩
  | .hbm, ⟨10, _⟩ => ⟨S4x4096x64, .f32⟩
  | .hbm, ⟨11, _⟩ => ⟨S4x4096x64, .f32⟩
  | .hbm, ⟨12, _⟩ => ⟨S1x1x64, .f32⟩
  | .hbm, ⟨13, _⟩ => ⟨S4x4096x64, .f32⟩
  | .hbm, ⟨14, _⟩ => ⟨S4x4096x64, .f32⟩
  | .hbm, ⟨15, _⟩ => ⟨S4x4096x64, .f32⟩
  | .hbm, ⟨16, _⟩ => ⟨S1x1x64, .f32⟩
  | .hbm, ⟨17, _⟩ => ⟨S4x4096x64, .f32⟩
  | .hbm, ⟨18, _⟩ => ⟨S4x4096x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S4x4096, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S4x4096x64, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x512_S64x512_S4x4096x64_2_1_01_0_n_n_wf : DotDims.WF S4x4096x512 S64x512 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x512_S64x512_S4x4096x64_2_1_01_0_n_n : DotDims S4x4096x512 S64x512 S4x4096x64 where
  lhsContracting := [2]
  rhsContracting := [1]
  lhsNonContracting := [0, 1]
  rhsNonContracting := [0]
  lhsBatch := []
  rhsBatch := []
  wf := dot_S4x4096x512_S64x512_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KRun.lean ====
/-
  The idealized kernel's run, with its result named.  Every weakly fair execution of the program terminates without a
  fault; in the final state the result buffer holds what the second pallas_call's write-backs leave of it (the fold of
  buffer contents through the host operations and the two regions, read at the result's buffer) and every argument
  array is as launched.
-/
import proofs.«135418_j61048665145392_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v8) = W3 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v8 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Val

end
-- ==== Proof.Region0Pay.lean ====
/-
  The first pallas_call's arithmetic, read one element at a time.  Its body multiplies a block of rows of `x` by the
  stacked, transposed weight matrix `[Wq; Wv]ᵀ` and adds the stacked bias row; the left half of the columns is the
  query block and the right half the value block.  The key block is produced already transposed: the rows of `Wk`
  against the rows of the `x` block, plus the bias as a column.
-/
import proofs.«135418_j61048665145392_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region0

open Cert.KernelIdeal Cert.KernelIdeal.Gen
open Idealize.ShloMosaic Idealize.ShloMosaic.ValueIdx

/-- The block of `x` with its unit axis dropped (and the change of format, the identity on extended reals). -/
theorem xrow_apply (x0 : FVec Ideal S1x2048x512 .f32) (r : Fin 2048) (k : Fin 512) :
    (k0_pay1 (F := Ideal) x0 (ix2 r k) : EReal) = x0 (ix3 (0 : Fin 1) r k) := by
  unfold k0_pay1
  exact shapeCast_1ab_ab_apply x0 _ r k

/-- The operand indices of that product: the left operand's row is the result's row, -/
theorem qv_lhs_0 (i : S2048x128.Idx) (q : dot_S2048x512_S512x128_S2048x128_1_0_0_1_n_n.contr.Idx) :
    (dot_S2048x512_S512x128_S2048x128_1_0_0_1_n_n.lhsIdx i q 0).val = (i 0).val := by
  unfold DotDims.lhsIdx
  rw [dif_neg (show ¬(0 : Fin S2048x512.rank) ∈ dot_S2048x512_S512x128_S2048x128_1_0_0_1_n_n.lhsBatch by decide),
    dif_pos (show (0 : Fin S2048x512.rank) ∈ dot_S2048x512_S512x128_S2048x128_1_0_0_1_n_n.lhsNonContracting by decide)]
  rfl
/-- the right operand's column the result's column. -/
theorem qv_rhs_1 (i : S2048x128.Idx) (q : dot_S2048x512_S512x128_S2048x128_1_0_0_1_n_n.contr.Idx) :
    (dot_S2048x512_S512x128_S2048x128_1_0_0_1_n_n.rhsIdx i q 1).val = (i 1).val := by
  unfold DotDims.rhsIdx
  rw [dif_neg (show ¬(1 : Fin S512x128.rank) ∈ dot_S2048x512_S512x128_S2048x128_1_0_0_1_n_n.rhsBatch by decide),
    dif_pos (show (1 : Fin S512x128.rank) ∈ dot_S2048x512_S512x128_S2048x128_1_0_0_1_n_n.rhsNonContracting by decide)]
  rfl

/-- A product of a `[2048, 512]` block with a `[512, 128]` matrix into a zero accumulator, at `(r, j)`: the sum over
    the shared axis. -/
theorem matmul_rows_cols (A : FVec Ideal S2048x512 .bf16) (B : FVec Ideal S512x128 .bf16) (r : Fin 2048) (j : Fin 128) :
    matmul dot_S2048x512_S512x128_S2048x128_1_0_0_1_n_n none A B (constant S2048x128 .f32 0x00000000#32) (ix2 r j)
      = ∑ k : Fin 512, A (ix2 r k) * B (ix2 k j) := by
  simp only [matmul]
  rw [Ideal.matmul_constant_zero_apply,
    ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 r j)
      ((contrEquiv1 dot_S2048x512_S512x128_S2048x128_1_0_0_1_n_n 512 rfl rfl).symm k) = ix2 r k := funext fun a => Fin.ext (by
    match a with
    | ⟨0, _⟩ => exact qv_lhs_0 _ _
    | ⟨1, _⟩ => exact (dot_S2048x512_S512x128_S2048x128_1_0_0_1_n_n.lhsIdx_val_of_single rfl _ _).trans hk)
  have er : dot_S2048x512_S512x128_S2048x128_1_0_0_1_n_n.rhsIdx (ix2 r j)
      ((contrEquiv1 dot_S2048x512_S512x128_S2048x128_1_0_0_1_n_n 512 rfl rfl).symm k) = ix2 k j := funext fun a => Fin.ext (by
    match a with
    | ⟨0, _⟩ => exact (dot_S2048x512_S512x128_S2048x128_1_0_0_1_n_n.rhsIdx_val_of_single rfl _ _).trans hk
    | ⟨1, _⟩ => exact qv_rhs_1 _ _)
  rw [el, er]

/-- The fused query/value projection of a block, at row `r` and stacked column `j`. -/
theorem qv_apply (x0 : FVec Ideal S1x2048x512 .f32) (x1 : FVec Ideal S512x128 .bf16) (x2 : FVec Ideal S1x128 .f32)
    (r : Fin 2048) (j : Fin 128) :
    k0_pay2 x0 x1 x2 (ix2 r j)
      = (∑ k : Fin 512, x0 (ix3 (0 : Fin 1) r k) * x1 (ix2 k j)) + x2 (ix2 (0 : Fin 1) j) := by
  unfold k0_pay2
  rw [addf_apply, matmul_rows_cols, shapeCast_self, shapeCast_self, broadcastTo_1b_ab_apply]
  exact congrArg (· + x2 (ix2 (0 : Fin 1) j)) (Finset.sum_congr rfl fun k _ => by rw [xrow_apply])

/-- THE QUERY BLOCK at `(r, e)`: the left half of the stacked columns. -/
theorem q_apply (x0 : FVec Ideal S1x2048x512 .f32) (x1 : FVec Ideal S512x128 .bf16) (x2 : FVec Ideal S1x128 .f32)
    (r : Fin 2048) (e : Fin 64) :
    (k0_pay3 (F := Ideal) x0 x1 x2 (ix3 (0 : Fin 1) r e) : EReal)
      = (∑ k : Fin 512, x0 (ix3 (0 : Fin 1) r k) * x1 (ix2 k (⟨e.val, by omega⟩ : Fin 128)))
          + x2 (ix2 (0 : Fin 1) (⟨e.val, by omega⟩ : Fin 128)) := by
  unfold k0_pay3
  refine (shapeCast_ab_1ab_apply _ _ (0 : Fin 1) r e).trans ?_
  show extractStridedSlice S2048x64 ![0, 0] (k0_pay2 (F := Ideal) x0 x1 x2) slices_S2048x128_o0_0_S2048x64 (ix2 r e) = _
  refine (slice2_axis1_apply 0 (k0_pay2 (F := Ideal) x0 x1 x2) slices_S2048x128_o0_0_S2048x64 r e (⟨e.val, by omega⟩ : Fin 128) (by simp)).trans ?_
  exact qv_apply x0 x1 x2 r _

/-- THE VALUE BLOCK at `(r, e)`: the right half of the stacked columns. -/
theorem v_apply (x0 : FVec Ideal S1x2048x512 .f32) (x1 : FVec Ideal S512x128 .bf16) (x2 : FVec Ideal S1x128 .f32)
    (r : Fin 2048) (e : Fin 64) :
    (k0_pay4 (F := Ideal) x0 x1 x2 (ix3 (0 : Fin 1) r e) : EReal)
      = (∑ k : Fin 512, x0 (ix3 (0 : Fin 1) r k) * x1 (ix2 k (⟨64 + e.val, by omega⟩ : Fin 128)))
          + x2 (ix2 (0 : Fin 1) (⟨64 + e.val, by omega⟩ : Fin 128)) := by
  unfold k0_pay4
  refine (shapeCast_ab_1ab_apply _ _ (0 : Fin 1) r e).trans ?_
  show extractStridedSlice S2048x64 ![0, 64] (k0_pay2 (F := Ideal) x0 x1 x2) slices_S2048x128_o0_64_S2048x64 (ix2 r e) = _
  refine (slice2_axis1_apply 64 (k0_pay2 (F := Ideal) x0 x1 x2) slices_S2048x128_o0_64_S2048x64 r e (⟨64 + e.val, by omega⟩ : Fin 128) rfl).trans ?_
  exact qv_apply x0 x1 x2 r _

/-- The operand indices of the transposed key product: the left operand's row is the result's row, -/
theorem kt_lhs_0 (i : S64x2048.Idx) (q : dot_S64x512_S2048x512_S64x2048_1_1_0_0_n_n.contr.Idx) :
    (dot_S64x512_S2048x512_S64x2048_1_1_0_0_n_n.lhsIdx i q 0).val = (i 0).val := by
  unfold DotDims.lhsIdx
  rw [dif_neg (show ¬(0 : Fin S64x512.rank) ∈ dot_S64x512_S2048x512_S64x2048_1_1_0_0_n_n.lhsBatch by decide),
    dif_pos (show (0 : Fin S64x512.rank) ∈ dot_S64x512_S2048x512_S64x2048_1_1_0_0_n_n.lhsNonContracting by decide)]
  rfl
/-- the right operand's ROW the result's column. -/
theorem kt_rhs_0 (i : S64x2048.Idx) (q : dot_S64x512_S2048x512_S64x2048_1_1_0_0_n_n.contr.Idx) :
    (dot_S64x512_S2048x512_S64x2048_1_1_0_0_n_n.rhsIdx i q 0).val = (i 1).val := by
  unfold DotDims.rhsIdx
  rw [dif_neg (show ¬(0 : Fin S2048x512.rank) ∈ dot_S64x512_S2048x512_S64x2048_1_1_0_0_n_n.rhsBatch by decide),
    dif_pos (show (0 : Fin S2048x512.rank) ∈ dot_S64x512_S2048x512_S64x2048_1_1_0_0_n_n.rhsNonContracting by decide)]
  rfl

/-- A product of a `[64, 512]` matrix with the TRANSPOSE of a `[2048, 512]` block into a zero accumulator, at `(e, s)`:
    rows against rows. -/
theorem matmul_rows_rows (A : FVec Ideal S64x512 .bf16) (B : FVec Ideal S2048x512 .bf16) (e : Fin 64) (s : Fin 2048) :
    matmul dot_S64x512_S2048x512_S64x2048_1_1_0_0_n_n none A B (constant S64x2048 .f32 0x00000000#32) (ix2 e s)
      = ∑ k : Fin 512, A (ix2 e k) * B (ix2 s k) := by
  simp only [matmul]
  rw [Ideal.matmul_constant_zero_apply,
    ← Equiv.sum_comp (contrEquiv1 dot_S64x512_S2048x512_S64x2048_1_1_0_0_n_n 512 rfl rfl).symm]
  refine Finset.sum_congr rfl fun k _ => ?_
  have hk := contrEquiv1_symm_val dot_S64x512_S2048x512_S64x2048_1_1_0_0_n_n 512 rfl rfl k
  have el : dot_S64x512_S2048x512_S64x2048_1_1_0_0_n_n.lhsIdx (ix2 e s)
      ((contrEquiv1 dot_S64x512_S2048x512_S64x2048_1_1_0_0_n_n 512 rfl rfl).symm k) = ix2 e k := funext fun a => Fin.ext (by
    match a with
    | ⟨0, _⟩ => exact kt_lhs_0 _ _
    | ⟨1, _⟩ => exact (dot_S64x512_S2048x512_S64x2048_1_1_0_0_n_n.lhsIdx_val_of_single rfl _ _).trans hk)
  have er : dot_S64x512_S2048x512_S64x2048_1_1_0_0_n_n.rhsIdx (ix2 e s)
      ((contrEquiv1 dot_S64x512_S2048x512_S64x2048_1_1_0_0_n_n 512 rfl rfl).symm k) = ix2 s k := funext fun a => Fin.ext (by
    match a with
    | ⟨0, _⟩ => exact kt_rhs_0 _ _
    | ⟨1, _⟩ => exact (dot_S64x512_S2048x512_S64x2048_1_1_0_0_n_n.rhsIdx_val_of_single rfl _ _).trans hk)
  rw [el, er]

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE TRANSPOSED KEY BLOCK at `(e, s)`: row `e` of the key weights against row `s` of the `x` block, plus the bias. -/
theorem kt_apply (x0 : FVec Ideal S1x2048x512 .f32) (x3 : FVec Ideal S64x512 .bf16) (x4 : FVec Ideal S64x1 .f32)
    (e : Fin 64) (s : Fin 2048) :
    (k0_pay5 (F := Ideal) x0 x3 x4 (ix3 (0 : Fin 1) e s) : EReal)
      = (∑ k : Fin 512, x3 (ix2 e k) * x0 (ix3 (0 : Fin 1) s k)) + x4 (ix2 e (0 : Fin 1)) := by
  unfold k0_pay5
  refine (shapeCast_ab_1ab_apply _ _ (0 : Fin 1) e s).trans ?_
  show addf (F := Ideal) _ _ (ix2 e s) = _
  rw [addf_apply, matmul_rows_rows, shapeCast_self, shapeCast_self, broadcastTo_a1_ab_apply]
  exact congrArg (· + x4 (ix2 e (0 : Fin 1))) (Finset.sum_congr rfl fun k _ => by rw [xrow_apply])

end Cert.KernelIdeal.Region0

end
-- ==== Proof.Region0.lean ====
/-
  The first pallas_call as whole arrays.  Its grid is (batch entry, half of the sequence); the point `(b, j)` writes
  rows `2048·j … 2048·j + 2047` of batch entry `b` of the query and value arrays, and the same columns of the
  transposed key array.  Every element of the three arrays is written by exactly one point, and what is written
  there is the projection of the matching row of `x`: so each array, after the call, is one function of the arrays
  the call finds.
-/
import proofs.«135418_j61048665145392_2_alg».proof.Proof.Gen.KernelIdeal.Frame
import proofs.«135418_j61048665145392_2_alg».proof.Proof.Region0Pay

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The windows' blocks as parts of their arrays -/

/-- The printed index maps, decided over the grid: the `x` block and the three output blocks move together over
    (batch entry, sequence half); the four small operands are whole at every point. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 3) = win0_5.index t (0 : Fin 3) ∧ win0_6.index t (1 : Fin 3) = win0_5.index t (1 : Fin 3)
    ∧ win0_6.index t (2 : Fin 3) = 0
    ∧ win0_7.index t (0 : Fin 3) = win0_5.index t (0 : Fin 3) ∧ win0_7.index t (1 : Fin 3) = 0
    ∧ win0_7.index t (2 : Fin 3) = win0_5.index t (1 : Fin 3)
    ∧ win0_5.index t (0 : Fin 3) ≤ 3 ∧ win0_5.index t (1 : Fin 3) ≤ 1 :=
  (by decide +kernel : ∀ t : Fin grid0.N, _)

/-- Every (batch entry, sequence half) is some point's. -/
theorem idx_onto : ∀ (q0 : Fin 4) (q1 : Fin 2), ∃ t : Fin cfg0.N,
    win0_5.index t (0 : Fin 3) = q0.val ∧ win0_5.index t (1 : Fin 3) = q1.val :=
  (by decide +kernel : ∀ (q0 : Fin 4) (q1 : Fin 2), ∃ t : Fin grid0.N,
    win0_5.index t (0 : Fin 3) = q0.val ∧ win0_5.index t (1 : Fin 3) = q1.val)

/-- An element of the `x` block at a point is the element of `x` at block index × block size + its coordinate. -/
theorem xblk_apply (c : Dev nD) (t : Fin cfg0.N) (z : S1x2048x512.Idx) (k : S4x4096x512.Idx)
    (h0 : (k 0).val = win0_0.index t (0 : Fin 3) * 1 + (z 0).val)
    (h1 : (k 1).val = win0_0.index t (1 : Fin 3) * 2048 + (z 1).val)
    (h2 : (k 2).val = win0_0.index t (2 : Fin 3) * 512 + (z 2).val) :
    (iblk0 V c 0 t : Vec Ideal S1x2048x512 .f32) z = (V c (Pipeline.arrRef spec0 0) : S4x4096x512.Idx → EReal) k := by
  unfold iblk0
  show V c _ _ = V c _ _
  refine congrArg (V c _) (funext fun a => Fin.ext ?_)
  match a with
  | ⟨0, _⟩ => show win0_0.index t (0 : Fin 3) * 1 + 1 * (z 0).val = (k 0).val; omega
  | ⟨1, _⟩ => show win0_0.index t (1 : Fin 3) * 2048 + 1 * (z 1).val = (k 1).val; omega
  | ⟨2, _⟩ => show win0_0.index t (2 : Fin 3) * 512 + 1 * (z 2).val = (k 2).val; omega

/-- The stacked weight matrix is whole at every point. -/
theorem wblk_apply (c : Dev nD) (t : Fin cfg0.N) (z : S512x128.Idx) :
    (iblk0 V c 1 t : Vec Ideal S512x128 .bf16) z = (V c (Pipeline.arrRef spec0 1) : S512x128.Idx → EReal) z := by
  obtain ⟨-, -, -, -, e0, e1, -⟩ := idx_facts t
  unfold iblk0
  show V c _ _ = V c _ _
  refine congrArg (V c _) (funext fun a => Fin.ext ?_)
  match a with
  | ⟨0, _⟩ => show win0_1.index t (0 : Fin 2) * 512 + 1 * (z 0).val = (z 0).val; omega
  | ⟨1, _⟩ => show win0_1.index t (1 : Fin 2) * 128 + 1 * (z 1).val = (z 1).val; omega

/-- The stacked bias row is whole at every point. -/
theorem bblk_apply (c : Dev nD) (t : Fin cfg0.N) (z : S1x128.Idx) :
    (iblk0 V c 2 t : Vec Ideal S1x128 .f32) z = (V c (Pipeline.arrRef spec0 2) : S1x128.Idx → EReal) z := by
  obtain ⟨-, -, -, -, -, -, e0, e1, -⟩ := idx_facts t
  unfold iblk0
  show V c _ _ = V c _ _
  refine congrArg (V c _) (funext fun a => Fin.ext ?_)
  match a with
  | ⟨0, _⟩ => show win0_2.index t (0 : Fin 2) * 1 + 1 * (z 0).val = (z 0).val; omega
  | ⟨1, _⟩ => show win0_2.index t (1 : Fin 2) * 128 + 1 * (z 1).val = (z 1).val; omega

/-! ## The query array -/

/-- Row `(b, s)` of `x` against column `j` of the stacked, transposed weights, plus entry `j` of the stacked bias. -/
def proj (X : S4x4096x512.Idx → EReal) (Wt : S512x128.Idx → EReal) (Bv : S1x128.Idx → EReal)
    (b : Fin 4) (s : Fin 4096) (j : Fin 128) : EReal :=
  (∑ k : Fin 512, X (ix3 b s k) * Wt (ix2 k j)) + Bv (ix2 (0 : Fin 1) j)

/-- The query array as one function of the arrays the call finds: the left half of the stacked columns. -/
def GQ (X : S4x4096x512.Idx → EReal) (Wt : S512x128.Idx → EReal) (Bv : S1x128.Idx → EReal) : S4x4096x64.Idx → EReal :=
  fun i => proj X Wt Bv ⟨(i 0).val, (i 0).isLt⟩ ⟨(i 1).val, (i 1).isLt⟩ ⟨(i 2).val, by have := (i 2).isLt; simp at this; omega⟩

/-- `GQ` at an index whose coordinates are known. -/
theorem GQ_of_coords (X : S4x4096x512.Idx → EReal) (Wt : S512x128.Idx → EReal) (Bv : S1x128.Idx → EReal)
    (I : S4x4096x64.Idx) (b : Fin 4) (s : Fin 4096) (j : Fin 128)
    (h0 : (I 0).val = b.val) (h1 : (I 1).val = s.val) (h2 : (I 2).val = j.val) : GQ X Wt Bv I = proj X Wt Bv b s j := by
  unfold GQ
  congr 1
  · exact Fin.ext h0
  · exact Fin.ext h1
  · exact Fin.ext h2

/-- What a point writes back of the query array is its block of `GQ`. -/
theorem flushedQ_eq (c : Dev nD) (t : Fin cfg0.N) :
    (dat0 V c).flushed 5 t = ((cfg0.win 5).blk t).view.read (Elt Ideal)
      (GQ (V c (Pipeline.arrRef spec0 0)) (V c (Pipeline.arrRef spec0 1)) (V c (Pipeline.arrRef spec0 2))) := by
  show (cfg0.win 5).cut (grid0.coords t) ((dat0 V c).after 5 t) = _
  rw [after0_5]
  unfold out0_5
  rw [View.canon_unit_zero hz3]
  simp only [View.ld_unit_zero (S := S1x2048x512) hz3, View.ld_unit_zero (S := S512x128) hz2, View.ld_unit_zero (S := S1x128) hz2]
  obtain ⟨e0, e1, e2, e3, -, -, -, -, -, -, -, -, -, -, -, -, -, -, b0, b1⟩ := idx_facts t
  funext y
  obtain ⟨u, r, e, rfl⟩ : ∃ (u : Fin 1) (r : Fin 2048) (e : Fin 64), y = ix3 u r e := ⟨y 0, y 1, y 2, eq_ix3 y⟩
  obtain rfl : u = 0 := Subsingleton.elim _ _
  refine (q_apply (iblk0 V c 0 t) (iblk0 V c 1 t) (iblk0 V c 2 t) r e).trans ?_
  show _ = GQ (V c (Pipeline.arrRef spec0 0)) (V c (Pipeline.arrRef spec0 1)) (V c (Pipeline.arrRef spec0 2))
    (((cfg0.win 5).blk t).view.emb (ix3 (0 : Fin 1) r e))
  have hr := r.isLt
  have he := e.isLt
  refine Eq.trans ?_ (GQ_of_coords _ _ _ _ ⟨win0_5.index t (0 : Fin 3), by omega⟩
    ⟨win0_5.index t (1 : Fin 3) * 2048 + r.val, by omega⟩ ⟨e.val, by omega⟩
    (show win0_5.index t (0 : Fin 3) * 1 + 1 * 0 = win0_5.index t (0 : Fin 3) by omega)
    (show win0_5.index t (1 : Fin 3) * 2048 + 1 * r.val = win0_5.index t (1 : Fin 3) * 2048 + r.val by omega)
    (show win0_5.index t (2 : Fin 3) * 64 + 1 * e.val = e.val by omega)).symm
  unfold proj
  refine congrArg₂ (· + ·) (Finset.sum_congr rfl fun k _ => congrArg₂ (· * ·)
    (xblk_apply V c t _ _ ?_ ?_ ?_) (wblk_apply V c t _)) (bblk_apply V c t _)
  · show win0_5.index t (0 : Fin 3) = win0_0.index t (0 : Fin 3) * 1 + 0; omega
  · show win0_5.index t (1 : Fin 3) * 2048 + r.val = win0_0.index t (1 : Fin 3) * 2048 + r.val; omega
  · show k.val = win0_0.index t (2 : Fin 3) * 512 + k.val; omega

/-- An index of the query array is in a point's block iff each coordinate is in the block's range on its axis. -/
theorem mem_blkQ (t : Fin cfg0.N) (i : S4x4096x64.Idx) :
    i ∈ ((cfg0.win 5).blk t).view.set ↔ ∀ a : Fin 3, win0_5.index t a * S1x2048x64.size a ≤ (i a).val
      ∧ (i a).val < win0_5.index t a * S1x2048x64.size a + S1x2048x64.size a := by
  show i ∈ ((View.whole main_v7_0).slice (win0_5.rect t)).set ↔ _
  rw [View.set_slice_whole, Rect.mem_set_unit]
  exact Iff.rfl

/-- Every element of the query array is written by the point of its batch entry and sequence half. -/
theorem coverQ (i : S4x4096x64.Idx) : ∃ t : Fin cfg0.N, (cfg0.win 5).flush t = true ∧ i ∈ ((cfg0.win 5).blk t).view.set := by
  have hi0 : (i 0).val < 4 := (i 0).isLt
  have hi1 : (i 1).val < 4096 := (i 1).isLt
  have hi2 : (i 2).val < 64 := (i 2).isLt
  obtain ⟨t, q0, q1⟩ := idx_onto ⟨(i 0).val, hi0⟩ ⟨(i 1).val / 2048, by omega⟩
  obtain ⟨-, -, -, e3, -⟩ := idx_facts t
  refine ⟨t, flush0_5 t, ?_⟩
  rw [mem_blkQ]
  intro a
  match a with
  | ⟨0, _⟩ => show win0_5.index t (0 : Fin 3) * 1 ≤ (i 0).val ∧ (i 0).val < win0_5.index t (0 : Fin 3) * 1 + 1
              simp only at q0; omega
  | ⟨1, _⟩ => show win0_5.index t (1 : Fin 3) * 2048 ≤ (i 1).val ∧ (i 1).val < win0_5.index t (1 : Fin 3) * 2048 + 2048
              simp only at q1; omega
  | ⟨2, _⟩ => show win0_5.index t (2 : Fin 3) * 64 ≤ (i 2).val ∧ (i 2).val < win0_5.index t (2 : Fin 3) * 64 + 64
              omega

/-- THE QUERY ARRAY after the call, element by element. -/
theorem q_arr (c : Dev nD) (b : Fin 4) (s : Fin 4096) (e : Fin 64) :
    ((dat0 V c).arrAt 5 cfg0.N : S4x4096x64.Idx → EReal) (ix3 b s e)
      = proj (V c (Pipeline.arrRef spec0 0)) (V c (Pipeline.arrRef spec0 1)) (V c (Pipeline.arrRef spec0 2)) b s
          (⟨e.val, by omega⟩ : Fin 128) := by
  rw [(dat0 V c).arrAt_eq_of_cover 5 _ (fun t _ => flushedQ_eq V c t) coverQ]
  exact GQ_of_coords _ _ _ _ b s _ rfl rfl rfl

end Cert.KernelIdeal.Region0

end
-- ==== Proof.Region0V.lean ====
/-
  The value array of the first pallas_call as one whole-array function: the same grid, blocks and cover as the query
  array, with the right half of the stacked columns in place of the left.
-/
import proofs.«135418_j61048665145392_2_alg».proof.Proof.Region0

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The value array as one function of the arrays the call finds: the right half of the stacked columns. -/
def GV (X : S4x4096x512.Idx → EReal) (Wt : S512x128.Idx → EReal) (Bv : S1x128.Idx → EReal) : S4x4096x64.Idx → EReal :=
  fun i => proj X Wt Bv ⟨(i 0).val, (i 0).isLt⟩ ⟨(i 1).val, (i 1).isLt⟩ ⟨64 + (i 2).val, by have := (i 2).isLt; simp at this; omega⟩

/-- `GV` at an index whose coordinates are known. -/
theorem GV_of_coords (X : S4x4096x512.Idx → EReal) (Wt : S512x128.Idx → EReal) (Bv : S1x128.Idx → EReal)
    (I : S4x4096x64.Idx) (b : Fin 4) (s : Fin 4096) (j : Fin 128)
    (h0 : (I 0).val = b.val) (h1 : (I 1).val = s.val) (h2 : 64 + (I 2).val = j.val) : GV X Wt Bv I = proj X Wt Bv b s j := by
  unfold GV
  congr 1
  · exact Fin.ext h0
  · exact Fin.ext h1
  · exact Fin.ext h2

/-- What a point writes back of the value array is its block of `GV`. -/
theorem flushedV_eq (c : Dev nD) (t : Fin cfg0.N) :
    (dat0 V c).flushed 6 t = ((cfg0.win 6).blk t).view.read (Elt Ideal)
      (GV (V c (Pipeline.arrRef spec0 0)) (V c (Pipeline.arrRef spec0 1)) (V c (Pipeline.arrRef spec0 2))) := by
  show (cfg0.win 6).cut (grid0.coords t) ((dat0 V c).after 6 t) = _
  rw [after0_6]
  unfold out0_6
  rw [View.canon_unit_zero hz3]
  simp only [View.ld_unit_zero (S := S1x2048x512) hz3, View.ld_unit_zero (S := S512x128) hz2, View.ld_unit_zero (S := S1x128) hz2]
  obtain ⟨e0, e1, e2, e3, -, -, -, -, -, -, -, -, f0, f1, f2, -, -, -, b0, b1⟩ := idx_facts t
  funext y
  obtain ⟨u, r, e, rfl⟩ : ∃ (u : Fin 1) (r : Fin 2048) (e : Fin 64), y = ix3 u r e := ⟨y 0, y 1, y 2, eq_ix3 y⟩
  obtain rfl : u = 0 := Subsingleton.elim _ _
  refine (v_apply (iblk0 V c 0 t) (iblk0 V c 1 t) (iblk0 V c 2 t) r e).trans ?_
  show _ = GV (V c (Pipeline.arrRef spec0 0)) (V c (Pipeline.arrRef spec0 1)) (V c (Pipeline.arrRef spec0 2))
    (((cfg0.win 6).blk t).view.emb (ix3 (0 : Fin 1) r e))
  have hr := r.isLt
  have he := e.isLt
  refine Eq.trans ?_ (GV_of_coords _ _ _ _ ⟨win0_5.index t (0 : Fin 3), by omega⟩
    ⟨win0_5.index t (1 : Fin 3) * 2048 + r.val, by omega⟩ ⟨64 + e.val, by omega⟩
    (show win0_6.index t (0 : Fin 3) * 1 + 1 * 0 = win0_5.index t (0 : Fin 3) by omega)
    (show win0_6.index t (1 : Fin 3) * 2048 + 1 * r.val = win0_5.index t (1 : Fin 3) * 2048 + r.val by omega)
    (show 64 + (win0_6.index t (2 : Fin 3) * 64 + 1 * e.val) = 64 + e.val by omega)).symm
  unfold proj
  refine congrArg₂ (· + ·) (Finset.sum_congr rfl fun k _ => congrArg₂ (· * ·)
    (xblk_apply V c t _ _ ?_ ?_ ?_) (wblk_apply V c t _)) (bblk_apply V c t _)
  · show win0_5.index t (0 : Fin 3) = win0_0.index t (0 : Fin 3) * 1 + 0; omega
  · show win0_5.index t (1 : Fin 3) * 2048 + r.val = win0_0.index t (1 : Fin 3) * 2048 + r.val; omega
  · show k.val = win0_0.index t (2 : Fin 3) * 512 + k.val; omega

/-- An index of the value array is in a point's block iff each coordinate is in the block's range on its axis. -/
theorem mem_blkV (t : Fin cfg0.N) (i : S4x4096x64.Idx) :
    i ∈ ((cfg0.win 6).blk t).view.set ↔ ∀ a : Fin 3, win0_6.index t a * S1x2048x64.size a ≤ (i a).val
      ∧ (i a).val < win0_6.index t a * S1x2048x64.size a + S1x2048x64.size a := by
  show i ∈ ((View.whole main_v7_1).slice (win0_6.rect t)).set ↔ _
  rw [View.set_slice_whole, Rect.mem_set_unit]
  exact Iff.rfl

/-- Every element of the value array is written by the point of its batch entry and sequence half. -/
theorem coverV (i : S4x4096x64.Idx) : ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 64 := (i 2).isLt
  obtain ⟨t, q0, q1⟩ := idx_onto ⟨(i 0).val, hi0⟩ ⟨(i 1).val / 2048, by omega⟩
  obtain ⟨-, -, -, -, -, -, -, -, -, -, -, -, f0, f1, f2, -⟩ := idx_facts t
  refine ⟨t, flush0_6 t, ?_⟩
  rw [mem_blkV]
  intro a
  match a with
  | ⟨0, _⟩ => show win0_6.index t (0 : Fin 3) * 1 ≤ (i 0).val ∧ (i 0).val < win0_6.index t (0 : Fin 3) * 1 + 1
              simp only at q0; omega
  | ⟨1, _⟩ => show win0_6.index t (1 : Fin 3) * 2048 ≤ (i 1).val ∧ (i 1).val < win0_6.index t (1 : Fin 3) * 2048 + 2048
              simp only at q1; omega
  | ⟨2, _⟩ => show win0_6.index t (2 : Fin 3) * 64 ≤ (i 2).val ∧ (i 2).val < win0_6.index t (2 : Fin 3) * 64 + 64
              omega

/-- THE VALUE ARRAY after the call, element by element. -/
theorem v_arr (c : Dev nD) (b : Fin 4) (s : Fin 4096) (e : Fin 64) :
    ((dat0 V c).arrAt 6 cfg0.N : S4x4096x64.Idx → EReal) (ix3 b s e)
      = proj (V c (Pipeline.arrRef spec0 0)) (V c (Pipeline.arrRef spec0 1)) (V c (Pipeline.arrRef spec0 2)) b s
          (⟨64 + e.val, by omega⟩ : Fin 128) := by
  rw [(dat0 V c).arrAt_eq_of_cover 6 _ (fun t _ => flushedV_eq V c t) coverV]
  exact GV_of_coords _ _ _ _ b s _ rfl rfl rfl

end Cert.KernelIdeal.Region0

end
-- ==== Proof.Region0K.lean ====
/-
  The transposed key array of the first pallas_call as one whole array.  The point `(b, j)` of the grid writes columns
  `2048·j … 2048·j + 2047` of batch entry `b`: at row `e` and column `s` it leaves row `e` of the key weights against
  row `(b, s)` of `x`, plus the bias at `e`.  Every element of the array is written by exactly one point, so after the
  call the array is that one function of the arrays the call finds.
-/
import proofs.«135418_j61048665145392_2_alg».proof.Proof.Region0

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The key operands' blocks as their arrays -/

/-- The key weight matrix is whole at every point. -/
theorem kwblk_apply (c : Dev nD) (t : Fin cfg0.N) (z : S64x512.Idx) :
    (iblk0 V c 3 t : Vec Ideal S64x512 .bf16) z = (V c (Pipeline.arrRef spec0 3) : S64x512.Idx → EReal) z := by
  obtain ⟨-, -, -, -, -, -, -, -, e0, e1, -⟩ := idx_facts t
  unfold iblk0
  show V c _ _ = V c _ _
  refine congrArg (V c _) (funext fun a => Fin.ext ?_)
  match a with
  | ⟨0, _⟩ => show win0_3.index t (0 : Fin 2) * 64 + 1 * (z 0).val = (z 0).val; omega
  | ⟨1, _⟩ => show win0_3.index t (1 : Fin 2) * 512 + 1 * (z 1).val = (z 1).val; omega

/-- The key bias column is whole at every point. -/
theorem kbblk_apply (c : Dev nD) (t : Fin cfg0.N) (z : S64x1.Idx) :
    (iblk0 V c 4 t : Vec Ideal S64x1 .f32) z = (V c (Pipeline.arrRef spec0 4) : S64x1.Idx → EReal) z := by
  obtain ⟨-, -, -, -, -, -, -, -, -, -, e0, e1, -⟩ := idx_facts t
  unfold iblk0
  show V c _ _ = V c _ _
  refine congrArg (V c _) (funext fun a => Fin.ext ?_)
  match a with
  | ⟨0, _⟩ => show win0_4.index t (0 : Fin 2) * 64 + 1 * (z 0).val = (z 0).val; omega
  | ⟨1, _⟩ => show win0_4.index t (1 : Fin 2) * 1 + 1 * (z 1).val = (z 1).val; omega

/-! ## The transposed key array -/

/-- Row `e` of the key weights against row `(b, s)` of `x`, plus the bias. -/
def projT (X : S4x4096x512.Idx → EReal) (Wk : S64x512.Idx → EReal) (Bk : S64x1.Idx → EReal)
    (b : Fin 4) (e : Fin 64) (s : Fin 4096) : EReal :=
  (∑ k : Fin 512, Wk (ix2 e k) * X (ix3 b s k)) + Bk (ix2 e (0 : Fin 1))

/-- The transposed key array as one function of the arrays the call finds. -/
def GK (X : S4x4096x512.Idx → EReal) (Wk : S64x512.Idx → EReal) (Bk : S64x1.Idx → EReal) : S4x64x4096.Idx → EReal :=
  fun i => projT X Wk Bk ⟨(i 0).val, (i 0).isLt⟩ ⟨(i 1).val, (i 1).isLt⟩ ⟨(i 2).val, (i 2).isLt⟩

/-- `GK` at an index whose coordinates are known. -/
theorem GK_of_coords (X : S4x4096x512.Idx → EReal) (Wk : S64x512.Idx → EReal) (Bk : S64x1.Idx → EReal)
    (I : S4x64x4096.Idx) (b : Fin 4) (e : Fin 64) (s : Fin 4096)
    (h0 : (I 0).val = b.val) (h1 : (I 1).val = e.val) (h2 : (I 2).val = s.val) : GK X Wk Bk I = projT X Wk Bk b e s := by
  unfold GK
  congr 1
  · exact Fin.ext h0
  · exact Fin.ext h1
  · exact Fin.ext h2

/-- What a point writes back of the transposed key array is its block of `GK`. -/
theorem flushedK_eq (c : Dev nD) (t : Fin cfg0.N) :
    (dat0 V c).flushed 7 t = ((cfg0.win 7).blk t).view.read (Elt Ideal)
      (GK (V c (Pipeline.arrRef spec0 0)) (V c (Pipeline.arrRef spec0 3)) (V c (Pipeline.arrRef spec0 4))) := by
  show (cfg0.win 7).cut (grid0.coords t) ((dat0 V c).after 7 t) = _
  rw [after0_7]
  unfold out0_7
  rw [View.canon_unit_zero hz3]
  simp only [View.ld_unit_zero (S := S1x2048x512) hz3, View.ld_unit_zero (S := S64x512) hz2, View.ld_unit_zero (S := S64x1) hz2]
  obtain ⟨e0, e1, e2, e3, -, -, -, -, -, -, -, -, -, -, -, k0, k1, k2, b0, b1⟩ := idx_facts t
  funext y
  obtain ⟨u, e, r, rfl⟩ : ∃ (u : Fin 1) (e : Fin 64) (r : Fin 2048), y = ix3 u e r := ⟨y 0, y 1, y 2, eq_ix3 y⟩
  obtain rfl : u = 0 := Subsingleton.elim _ _
  refine (kt_apply (iblk0 V c 0 t) (iblk0 V c 3 t) (iblk0 V c 4 t) e r).trans ?_
  show _ = GK (V c (Pipeline.arrRef spec0 0)) (V c (Pipeline.arrRef spec0 3)) (V c (Pipeline.arrRef spec0 4))
    (((cfg0.win 7).blk t).view.emb (ix3 (0 : Fin 1) e r))
  have hr := r.isLt
  have he := e.isLt
  refine Eq.trans ?_ (GK_of_coords _ _ _ _ ⟨win0_5.index t (0 : Fin 3), by omega⟩ ⟨e.val, by omega⟩
    ⟨win0_5.index t (1 : Fin 3) * 2048 + r.val, by omega⟩
    (show win0_7.index t (0 : Fin 3) * 1 + 1 * 0 = win0_5.index t (0 : Fin 3) by omega)
    (show win0_7.index t (1 : Fin 3) * 64 + 1 * e.val = e.val by omega)
    (show win0_7.index t (2 : Fin 3) * 2048 + 1 * r.val = win0_5.index t (1 : Fin 3) * 2048 + r.val by omega)).symm
  unfold projT
  refine congrArg₂ (· + ·) (Finset.sum_congr rfl fun k _ => congrArg₂ (· * ·)
    (kwblk_apply V c t _) (xblk_apply V c t _ _ ?_ ?_ ?_)) (kbblk_apply V c t _)
  · show win0_5.index t (0 : Fin 3) = win0_0.index t (0 : Fin 3) * 1 + 0; omega
  · show win0_5.index t (1 : Fin 3) * 2048 + r.val = win0_0.index t (1 : Fin 3) * 2048 + r.val; omega
  · show k.val = win0_0.index t (2 : Fin 3) * 512 + k.val; omega

/-- Every element of the array is in the block of the point at (its batch entry, the half its column lies in). -/
theorem coverK (i : S4x64x4096.Idx) :
    ∃ t : Fin cfg0.N, (cfg0.win 7).flush t = true ∧ i ∈ ((cfg0.win 7).blk t).view.set := by
  have h0 : (i 0).val < 4 := (i 0).isLt
  have h1 : (i 1).val < 64 := (i 1).isLt
  have h2 : (i 2).val < 4096 := (i 2).isLt
  obtain ⟨t, q0, q1⟩ := idx_onto ⟨(i 0).val, h0⟩ ⟨(i 2).val / 2048, by omega⟩
  have q0' : win0_5.index t (0 : Fin 3) = (i 0).val := q0
  have q1' : win0_5.index t (1 : Fin 3) = (i 2).val / 2048 := q1
  obtain ⟨-, -, -, -, -, -, -, -, -, -, -, -, -, -, -, k0, k1, k2, -, -⟩ := idx_facts t
  refine ⟨t, flush0_7 t, ?_⟩
  show i ∈ ((View.whole main_v7_2).slice (win0_7.rect t)).set
  rw [View.set_slice_whole, Rect.mem_set_unit]
  intro a
  match a with
  | ⟨0, _⟩ =>
    show win0_7.index t (0 : Fin 3) * 1 ≤ (i 0).val ∧ (i 0).val < win0_7.index t (0 : Fin 3) * 1 + 1; omega
  | ⟨1, _⟩ =>
    show win0_7.index t (1 : Fin 3) * 64 ≤ (i 1).val ∧ (i 1).val < win0_7.index t (1 : Fin 3) * 64 + 64; omega
  | ⟨2, _⟩ =>
    show win0_7.index t (2 : Fin 3) * 2048 ≤ (i 2).val ∧ (i 2).val < win0_7.index t (2 : Fin 3) * 2048 + 2048; omega

/-- The transposed key array after the call is `GK` of the arrays the call finds. -/
theorem kt_final (c : Dev nD) :
    (dat0 V c).arrAt 7 cfg0.N
      = GK (V c (Pipeline.arrRef spec0 0)) (V c (Pipeline.arrRef spec0 3)) (V c (Pipeline.arrRef spec0 4)) :=
  (dat0 V c).arrAt_eq_of_cover 7 _ (fun t _ => flushedK_eq V c t) coverK

/-- The transposed key array after the call, at `(b, e, s)`. -/
theorem kt_arr (c : Dev nD) (b : Fin 4) (e : Fin 64) (s : Fin 4096) :
    ((dat0 V c).arrAt 7 cfg0.N : S4x64x4096.Idx → EReal) (ix3 b e s)
      = projT (V c (Pipeline.arrRef spec0 0)) (V c (Pipeline.arrRef spec0 3)) (V c (Pipeline.arrRef spec0 4)) b e s :=
  (congrFun (kt_final V c) (ix3 b e s)).trans (GK_of_coords _ _ _ _ b e s rfl rfl rfl)

end Cert.KernelIdeal.Region0

end
-- ==== Proof.Spec.lean ====
/-
  The mathematics of the certificate, free of any program: single-head self-attention over extended reals.

  For a batch entry `b` and a sequence position `s`, a linear projection is `x[b,s,:] · W[e,:] + bias[e]` (`lin`; `linT`
  is the same number with the two factors of each product exchanged, as a product `W · xᵀ` spells it).  From three
  tables `Qf Kf Vf` of such projections and a scale `c`, a row of scores is `s_k = (∑ₑ Qf[b,q,e] · Kf[b,k,e]) · c`,
  its maximum `m` is the fold of `max` over the row from `⊥`, and the weights are `p_k = exp (s_k - m)`.
  The two programs arrange the weighted average of the value rows differently:
  * `attnK`: `(∑ₖ p_k · Vf[b,k,e]) / (∑ₖ p_k)` — the normalisation after the sum;
  * `attnR`: `∑ₖ (p_k / ∑ₖ' p_k') · Vf[b,k,e]` — the normalisation inside it.
  They agree wherever the tables are real-valued (Proof/Law.lean).
-/
import Idealize.ShloMosaic.PureOps.Ideal
import Idealize.ShloMosaic.Lib.ValueIdx

noncomputable section

open scoped BigOperators

namespace Cert.Attn

open Idealize.ShloMosaic Idealize.ShloMosaic.ValueIdx

/-- An extended real that is a real number. -/
def IsReal (a : EReal) : Prop := ∃ r : ℝ, a = (r : EReal)

/-- `x[b,s,:] · W[e,:] + bias[e]`. -/
def lin (x : (⟨3, ![4, 4096, 512]⟩ : Shape).Idx → EReal) (W : (⟨2, ![64, 512]⟩ : Shape).Idx → EReal)
    (bias : (⟨1, ![64]⟩ : Shape).Idx → EReal) (b : Fin 4) (s : Fin 4096) (e : Fin 64) : EReal :=
  (∑ k : Fin 512, x (ix3 b s k) * W (ix2 e k)) + bias (ix1 e)

/-- `W[e,:] · x[b,s,:] + bias[e]`: the same projection, each product's factors exchanged. -/
def linT (x : (⟨3, ![4, 4096, 512]⟩ : Shape).Idx → EReal) (W : (⟨2, ![64, 512]⟩ : Shape).Idx → EReal)
    (bias : (⟨1, ![64]⟩ : Shape).Idx → EReal) (b : Fin 4) (s : Fin 4096) (e : Fin 64) : EReal :=
  (∑ k : Fin 512, W (ix2 e k) * x (ix3 b s k)) + bias (ix1 e)

/-- Multiplication of extended reals is commutative, so the two spellings are one function. -/
theorem linT_eq_lin : linT = lin := by
  funext x W bias b s e
  unfold linT lin
  exact congrArg (· + bias (ix1 e)) (Finset.sum_congr rfl fun k _ => mul_comm _ _)

/-- The scaled score of query row `q` against key row `k`. -/
def score (Qf Kf : Fin 4 → Fin 4096 → Fin 64 → EReal) (c : EReal) (b : Fin 4) (q k : Fin 4096) : EReal :=
  (∑ e : Fin 64, Qf b q e * Kf b k e) * c

/-- A row's maximum, as the fold of `max` from `⊥`. -/
def rowMax (s : Fin 4096 → EReal) : EReal := (Finset.univ : Finset (Fin 4096)).fold max ⊥ s

/-- The weight of key row `k` for query row `q`: `exp (s_k - max s)`. -/
def weight (Qf Kf : Fin 4 → Fin 4096 → Fin 64 → EReal) (c : EReal) (b : Fin 4) (q k : Fin 4096) : EReal :=
  Ideal.exp (score Qf Kf c b q k - rowMax (score Qf Kf c b q))

/-- Attention with the normalisation AFTER the weighted sum. -/
def attnK (Qf Kf Vf : Fin 4 → Fin 4096 → Fin 64 → EReal) (c : EReal) (b : Fin 4) (q : Fin 4096) (e : Fin 64) : EReal :=
  Ideal.div (∑ k : Fin 4096, weight Qf Kf c b q k * Vf b k e) (∑ k : Fin 4096, weight Qf Kf c b q k)

/-- Attention with the normalisation INSIDE the weighted sum. -/
def attnR (Qf Kf Vf : Fin 4 → Fin 4096 → Fin 64 → EReal) (c : EReal) (b : Fin 4) (q : Fin 4096) (e : Fin 64) : EReal :=
  ∑ k : Fin 4096, Ideal.div (weight Qf Kf c b q k) (∑ k' : Fin 4096, weight Qf Kf c b q k') * Vf b k e

end Cert.Attn

end
-- ==== Proof.Consts.lean ====
/-
  The float constants the two programs spell, as the extended reals their bit patterns denote, and the one
  arithmetic fact about them: the kernel's scale `0.125` is the reference's `1 / √64`.
-/
import Idealize.ShloMosaic.PureOps.Ideal

noncomputable section

namespace Cert.Attn.Consts

open Idealize.ShloMosaic

/-- The pattern of `-∞` denotes the bottom element. -/
theorem ofBits_neg_inf : Ideal.ofBits .f32 0xFF800000#32 = ⊥ := by
  simp [Ideal.ofBits, Ideal.ieee]

/-- The pattern of `+0.0` denotes `0`. -/
theorem ofBits_zero : Ideal.ofBits .f32 0x00000000#32 = 0 := by
  simp [Ideal.ofBits, Ideal.ieee]

/-- `1.0` denotes the real `1`. -/
theorem ofBits_one : Ideal.ofBits .f32 0x3F800000#32 = ((1 : ℝ) : EReal) := by
  simp [Ideal.ofBits, Ideal.ieee, -EReal.coe_mul]; norm_num

/-- `64.0` denotes the real `64`. -/
theorem ofBits_64 : Ideal.ofBits .f32 0x42800000#32 = ((64 : ℝ) : EReal) := by
  simp [Ideal.ofBits, Ideal.ieee, -EReal.coe_mul]; norm_num

/-- `0.125` denotes the real `1/8`. -/
theorem ofBits_eighth : Ideal.ofBits .f32 0x3E000000#32 = ((1 / 8 : ℝ) : EReal) := by
  simp [Ideal.ofBits, Ideal.ieee, -EReal.coe_mul]; norm_num

/-- `√64 = 8`, so the reference's scale `1 / √64` is the real `1/8`. -/
theorem ref_scale :
    Ideal.div (Ideal.ofBits .f32 0x3F800000#32) (Ideal.sqrt (Ideal.ofBits .f32 0x42800000#32)) = ((1 / 8 : ℝ) : EReal) := by
  have h8 : Real.sqrt 64 = 8 := by
    rw [show (64 : ℝ) = 8 ^ 2 by norm_num]; exact Real.sqrt_sq (by norm_num)
  rw [ofBits_one, ofBits_64, Ideal.sqrt_coe, if_neg (by norm_num), h8, Ideal.div_coe (by norm_num : (8 : ℝ) ≠ 0),
    ← EReal.coe_mul]
  norm_num

end Cert.Attn.Consts

end
-- ==== Proof.Region1Pay.lean ====
/-
  The attention kernel's body as mathematics: the value it stores, read at one index.

  The body takes a block `q` of 512 query rows, the whole transposed key table `kt` and the whole value table `v` of
  one batch entry, forms the scores `s = (q · kt) * (1/8)`, their row maxima `m`, the weights `p = exp (s - m)`, the
  row sums `l = ∑ p`, and stores `(p · v) / l`.  Read at row `r` and column `e` that is
  `(∑ₖ p[r,k] · v[k,e]) / (∑ₖ p[r,k])` — the normalisation after the sum.
-/
import proofs.«135418_j61048665145392_2_alg».proof.Proof.Gen.KernelIdeal.Skeleton
import proofs.«135418_j61048665145392_2_alg».proof.Proof.Spec
import proofs.«135418_j61048665145392_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region1

open Idealize.ShloMosaic Idealize.ShloMosaic.ValueIdx Cert.KernelIdeal Cert.KernelIdeal.Gen Cert.Attn

/-! ## Two column layouts: a vector as a one-column matrix, and that column repeated along the rows -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

/-! ## The two matrix products at an index -/

theorem matmul_qk_lhs0 (i : S512x4096.Idx) (q : dot_S512x64_S64x4096_S512x4096_1_0_0_1_n_n.contr.Idx) : (dot_S512x64_S64x4096_S512x4096_1_0_0_1_n_n.lhsIdx i q 0).val = (i 0).val := by
  unfold DotDims.lhsIdx
  rw [dif_neg (show ¬(0 : Fin S512x64.rank) ∈ dot_S512x64_S64x4096_S512x4096_1_0_0_1_n_n.lhsBatch by decide), dif_pos (show (0 : Fin S512x64.rank) ∈ dot_S512x64_S64x4096_S512x4096_1_0_0_1_n_n.lhsNonContracting by decide)]
  rfl
theorem matmul_qk_lhs1 (i : S512x4096.Idx) (q : dot_S512x64_S64x4096_S512x4096_1_0_0_1_n_n.contr.Idx) : (dot_S512x64_S64x4096_S512x4096_1_0_0_1_n_n.lhsIdx i q 1).val = (q ⟨0, by decide⟩).val :=
  dot_S512x64_S64x4096_S512x4096_1_0_0_1_n_n.lhsIdx_val_of_single rfl i q
theorem matmul_qk_rhs0 (i : S512x4096.Idx) (q : dot_S512x64_S64x4096_S512x4096_1_0_0_1_n_n.contr.Idx) : (dot_S512x64_S64x4096_S512x4096_1_0_0_1_n_n.rhsIdx i q 0).val = (q ⟨0, by decide⟩).val :=
  dot_S512x64_S64x4096_S512x4096_1_0_0_1_n_n.rhsIdx_val_of_single rfl i q
theorem matmul_qk_rhs1 (i : S512x4096.Idx) (q : dot_S512x64_S64x4096_S512x4096_1_0_0_1_n_n.contr.Idx) : (dot_S512x64_S64x4096_S512x4096_1_0_0_1_n_n.rhsIdx i q 1).val = (i 1).val := by
  unfold DotDims.rhsIdx
  rw [dif_neg (show ¬(1 : Fin S64x4096.rank) ∈ dot_S512x64_S64x4096_S512x4096_1_0_0_1_n_n.rhsBatch by decide), dif_pos (show (1 : Fin S64x4096.rank) ∈ dot_S512x64_S64x4096_S512x4096_1_0_0_1_n_n.rhsNonContracting by decide)]
  rfl

/-- `q · kt` into a zero accumulator, at `(r, c)`: the sum over the 64 features. -/
theorem matmul_qk_apply (lhs : FVec Ideal S512x64 .bf16) (rhs : FVec Ideal S64x4096 .bf16) (r : Fin 512) (c : Fin 4096) :
    matmul dot_S512x64_S64x4096_S512x4096_1_0_0_1_n_n none lhs rhs (constant (F := Ideal) S512x4096 .f32 0x00000000#32) (ix2 r c)
      = ∑ k : Fin 64, lhs (ix2 r k) * rhs (ix2 k c) := by
  simp only [matmul]
  rw [Ideal.matmul_constant_zero_apply, ← Equiv.sum_comp (contrEquiv1 dot_S512x64_S64x4096_S512x4096_1_0_0_1_n_n 64 rfl rfl).symm]
  refine Finset.sum_congr rfl fun k _ => ?_
  have hk := contrEquiv1_symm_val dot_S512x64_S64x4096_S512x4096_1_0_0_1_n_n 64 rfl rfl k
  have el : dot_S512x64_S64x4096_S512x4096_1_0_0_1_n_n.lhsIdx (ix2 r c) ((contrEquiv1 dot_S512x64_S64x4096_S512x4096_1_0_0_1_n_n 64 rfl rfl).symm k) = ix2 r k := funext fun a => Fin.ext (by
    match a with
    | ⟨0, _⟩ => exact matmul_qk_lhs0 _ _
    | ⟨1, _⟩ => exact (matmul_qk_lhs1 _ _).trans hk)
  have er : dot_S512x64_S64x4096_S512x4096_1_0_0_1_n_n.rhsIdx (ix2 r c) ((contrEquiv1 dot_S512x64_S64x4096_S512x4096_1_0_0_1_n_n 64 rfl rfl).symm k) = ix2 k c := funext fun a => Fin.ext (by
    match a with
    | ⟨0, _⟩ => exact (matmul_qk_rhs0 _ _).trans hk
    | ⟨1, _⟩ => exact matmul_qk_rhs1 _ _)
  rw [el, er]

theorem matmul_pv_lhs0 (i : S512x64.Idx) (q : dot_S512x4096_S4096x64_S512x64_1_0_0_1_n_n.contr.Idx) : (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem matmul_pv_lhs1 (i : S512x64.Idx) (q : dot_S512x4096_S4096x64_S512x64_1_0_0_1_n_n.contr.Idx) : (dot_S512x4096_S4096x64_S512x64_1_0_0_1_n_n.lhsIdx i q 1).val = (q ⟨0, by decide⟩).val :=
  dot_S512x4096_S4096x64_S512x64_1_0_0_1_n_n.lhsIdx_val_of_single rfl i q
theorem matmul_pv_rhs0 (i : S512x64.Idx) (q : dot_S512x4096_S4096x64_S512x64_1_0_0_1_n_n.contr.Idx) : (dot_S512x4096_S4096x64_S512x64_1_0_0_1_n_n.rhsIdx i q 0).val = (q ⟨0, by decide⟩).val :=
  dot_S512x4096_S4096x64_S512x64_1_0_0_1_n_n.rhsIdx_val_of_single rfl i q
theorem matmul_pv_rhs1 (i : S512x64.Idx) (q : dot_S512x4096_S4096x64_S512x64_1_0_0_1_n_n.contr.Idx) : (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- `p · v` into a zero accumulator, at `(r, c)`: the sum over the 4096 key rows. -/
theorem matmul_pv_apply (lhs : FVec Ideal S512x4096 .bf16) (rhs : FVec Ideal S4096x64 .bf16) (r : Fin 512) (c : Fin 64) :
    matmul dot_S512x4096_S4096x64_S512x64_1_0_0_1_n_n none lhs rhs (constant (F := Ideal) S512x64 .f32 0x00000000#32) (ix2 r c)
      = ∑ k : Fin 4096, lhs (ix2 r k) * rhs (ix2 k c) := by
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 r c) ((contrEquiv1 dot_S512x4096_S4096x64_S512x64_1_0_0_1_n_n 4096 rfl rfl).symm k) = ix2 r k := funext fun a => Fin.ext (by
    match a with
    | ⟨0, _⟩ => exact matmul_pv_lhs0 _ _
    | ⟨1, _⟩ => exact (matmul_pv_lhs1 _ _).trans hk)
  have er : dot_S512x4096_S4096x64_S512x64_1_0_0_1_n_n.rhsIdx (ix2 r c) ((contrEquiv1 dot_S512x4096_S4096x64_S512x64_1_0_0_1_n_n 4096 rfl rfl).symm k) = ix2 k c := funext fun a => Fin.ext (by
    match a with
    | ⟨0, _⟩ => exact (matmul_pv_rhs0 _ _).trans hk
    | ⟨1, _⟩ => exact matmul_pv_rhs1 _ _)
  rw [el, er]

/-! ## The two lane reductions at a row -/

/-- The reduced index with the lane coordinate put back is `(r, k)`. -/
theorem lift_row (h : S512x4096.Reduces [1] S512) (r : Fin 512) (k : Fin 4096) : h.lift (ix1 r) k = ix2 r k :=
  funext fun a => Fin.ext (by
    match a with
    | ⟨0, _⟩ => rfl
    | ⟨1, _⟩ => rfl)

/-- The row maximum from `-∞`: the fold of `max` over the row from `⊥`. -/
theorem rowMax_apply (src : FVec Ideal S512x4096 .f32) (h : S512x4096.Reduces [1] S512) (hφ : FKind.Formats .f32)
    (hacc : (0xFF800000#32 : BitVec 32) = FKind.maximumf.neutral .f32 hφ) (r : Fin 512) :
    multiReduction (F := Ideal) .maximumf [1] S512 src 0xFF800000#32 h hφ hacc (ix1 r)
      = (Finset.univ : Finset (Fin 4096)).fold max ⊥ (fun k => src (ix2 r k)) := by
  refine (Ideal.multiReduction_maximumf_single src _ h hφ hacc (ix1 r)).trans ?_
  show (Finset.univ : Finset (Fin 4096)).fold max (Ideal.ofBits .f32 0xFF800000#32) (fun k => src (h.lift (ix1 r) k)) = _
  rw [Consts.ofBits_neg_inf]
  exact congrArg (fun f => (Finset.univ : Finset (Fin 4096)).fold max ⊥ f) (funext fun k => congrArg src (lift_row h r k))

/-- The row sum from `0`: the sum over the row. -/
theorem rowSum_apply (src : FVec Ideal S512x4096 .f32) (h : S512x4096.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ k : Fin 4096, src (ix2 r k) := by
  refine (Ideal.multiReduction_add_single src _ h hφ hacc (ix1 r)).trans ?_
  exact Finset.sum_congr rfl fun k _ => congrArg src (lift_row h r k)

/-! ## The scores and the weights -/

/-- The scaled score of block row `r` against key row `k`: `(∑ₑ q[r,e] · kt[e,k]) · (1/8)`. -/
theorem score_apply (q : FVec Ideal S512x64 .bf16) (kt : FVec Ideal S64x4096 .bf16) (r : Fin 512) (k : Fin 4096) :
    mulf (matmul dot_S512x64_S64x4096_S512x4096_1_0_0_1_n_n none q kt (constant (F := Ideal) S512x4096 .f32 0x00000000#32))
        (broadcast S512x4096 (Scalar.ofBits (F := Ideal) .f32 0x3E000000#32)) (ix2 r k)
      = (∑ e : Fin 64, q (ix2 r e) * kt (ix2 e k)) * ((1 / 8 : ℝ) : EReal) := by
  refine (mulf_apply _ _ _).trans ?_
  refine congrArg₂ (· * ·) (matmul_qk_apply q kt r k) ?_
  show Ideal.ofBits .f32 0x3E000000#32 = _
  exact Consts.ofBits_eighth

/-- The weight at `(r, k)` of a table of scores `s`: `exp (s[r,k] - max s[r,:])`, the row maximum taken from `-∞`,
    kept as a one-column matrix and repeated along the row. -/
theorem weight_apply (s : FVec Ideal S512x4096 .f32) (h : S512x4096.Reduces [1] S512) (hc : S512.ShapeCasts S512x1)
    (hb : S512x1.Broadcasts S512x4096) (hφ : FKind.Formats .f32)
    (hacc : (0xFF800000#32 : BitVec 32) = FKind.maximumf.neutral .f32 hφ) (r : Fin 512) (k : Fin 4096) :
    exp (subf s (broadcastTo S512x4096 (shapeCast S512x1 (multiReduction (F := Ideal) .maximumf [1] S512 s 0xFF800000#32 h hφ hacc) hc) hb)) (ix2 r k)
      = Ideal.exp (s (ix2 r k) - (Finset.univ : Finset (Fin 4096)).fold max ⊥ (fun k' => s (ix2 r k'))) := by
  show Ideal.exp (s (ix2 r k) - broadcastTo S512x4096 (shapeCast S512x1 (multiReduction (F := Ideal) .maximumf [1] S512 s 0xFF800000#32 h hφ hacc) hc) hb (ix2 r k)) = _
  refine congrArg (fun m => Ideal.exp (s (ix2 r k) - m)) ?_
  refine (broadcastTo_a1_ab_apply _ hb r k).trans ?_
  refine (shapeCast_a_a1_apply _ hc r 0).trans ?_
  exact rowMax_apply s h hφ hacc r

/-! ## The stored value at an index -/

/-- The scaled scores of block row `r` of the query block `x0` against the transposed key table `x1`. -/
def sc (x0 : FVec Ideal S1x512x64 .bf16) (x1 : FVec Ideal S1x64x4096 .bf16) (r : Fin 512) (k : Fin 4096) : EReal :=
  (∑ e' : Fin 64, x0 (ix3 0 r e') * x1 (ix3 0 e' k)) * ((1 / 8 : ℝ) : EReal)

/-- Their weights: `exp (s_k - max s)`. -/
def wt (x0 : FVec Ideal S1x512x64 .bf16) (x1 : FVec Ideal S1x64x4096 .bf16) (r : Fin 512) (k : Fin 4096) : EReal :=
  Ideal.exp (sc x0 x1 r k - (Finset.univ : Finset (Fin 4096)).fold max ⊥ (sc x0 x1 r))

/-- THE STORED VALUE at row `r`, column `e` of the block: the weighted sum of the value rows over the sum of the weights.
    The unit axis of each loaded block is dropped, the score table is named once, and each operation is read at the
    index: the quotient, the two products, the two reductions, the column layouts. -/
theorem pay_apply (x0 : FVec Ideal S1x512x64 .bf16) (x1 : FVec Ideal S1x64x4096 .bf16) (x2 : FVec Ideal S1x4096x64 .bf16)
    (r : Fin 512) (e : Fin 64) :
    k1_pay1 (F := Ideal) x0 x1 x2 (ix3 0 r e)
      = Ideal.div (∑ k : Fin 4096, wt x0 x1 r k * x2 (ix3 0 k e)) (∑ k : Fin 4096, wt x0 x1 r k) := by
  unfold k1_pay1
  -- the table of scores, once: at `(r, k)` it is `sc x0 x1 r k`
  generalize hS : mulf (matmul dot_S512x64_S64x4096_S512x4096_1_0_0_1_n_n none (shapeCast S512x64 x0 _) (shapeCast S64x4096 x1 _)
      (constant (F := Ideal) S512x4096 .f32 0x00000000#32)) (broadcast S512x4096 (Scalar.ofBits (F := Ideal) .f32 0x3E000000#32)) = S
  have hs : ∀ (r : Fin 512) (k : Fin 4096), S (ix2 r k) = sc x0 x1 r k := fun r k => by
    subst hS
    refine (score_apply _ _ r k).trans ?_
    unfold sc
    exact congrArg (· * ((1 / 8 : ℝ) : EReal)) (Finset.sum_congr rfl fun e' _ =>
      congrArg₂ (· * ·) (shapeCast_1ab_ab_apply x0 _ r e') (shapeCast_1ab_ab_apply x1 _ e' k))
  -- the weights
  have hw : ∀ k : Fin 4096, Ideal.exp (S (ix2 r k) - (Finset.univ : Finset (Fin 4096)).fold max ⊥ (fun k' => S (ix2 r k'))) = wt x0 x1 r k :=
    fun k => by
      unfold wt
      rw [hs r k, show (fun k' => S (ix2 r k')) = sc x0 x1 r from funext fun k' => hs r k']
  refine (shapeCast_ab_1ab_apply _ _ 0 r e).trans ?_
  refine (divf_apply _ _ _).trans ?_
  refine congrArg₂ Ideal.div ?_ ?_
  · refine (matmul_pv_apply _ _ r e).trans ?_
    refine Finset.sum_congr rfl fun k _ => ?_
    refine congrArg₂ (· * ·) ?_ (shapeCast_1ab_ab_apply x2 _ k e)
    refine (truncf_apply (φ := .f32) (ψ := .bf16) _ _ (ix2 r k)).trans ?_
    exact (weight_apply S _ _ _ _ _ r k).trans (hw k)
  · refine (broadcastTo_a1_ab_apply _ _ r e).trans ?_
    refine (shapeCast_a_a1_apply _ _ r 0).trans ?_
    refine (rowSum_apply _ _ _ _ r).trans ?_
    exact Finset.sum_congr rfl fun k _ => (weight_apply S _ _ _ _ _ r k).trans (hw k)

/-! ## The stored value as attention over three tables -/

/-- If the query block's row `r` is row `q` of batch entry `b` of a table `A0`, the key block is batch entry `b` of a
    transposed table `A1`, and the value block is batch entry `b` of a table `A2`, then the stored value at `(r, e)` is
    the attention output, normalised after the sum, of the three tables at `(b, q, e)` with scale `1/8`. -/
theorem pay_eq_attnK (A0 : S4x4096x64.Idx → EReal) (A1 : S4x64x4096.Idx → EReal) (A2 : S4x4096x64.Idx → EReal)
    (x0 : FVec Ideal S1x512x64 .bf16) (x1 : FVec Ideal S1x64x4096 .bf16) (x2 : FVec Ideal S1x4096x64 .bf16)
    (b : Fin 4) (q : Fin 4096) (r : Fin 512) (e : Fin 64)
    (h0 : ∀ e' : Fin 64, x0 (ix3 0 r e') = A0 (ix3 b q e'))
    (h1 : ∀ (e' : Fin 64) (k : Fin 4096), x1 (ix3 0 e' k) = A1 (ix3 b e' k))
    (h2 : ∀ k : Fin 4096, x2 (ix3 0 k e) = A2 (ix3 b k e)) :
    k1_pay1 (F := Ideal) x0 x1 x2 (ix3 0 r e)
      = attnK (fun b s e => A0 (ix3 b s e)) (fun b k e => A1 (ix3 b e k)) (fun b s e => A2 (ix3 b s e))
          ((1 / 8 : ℝ) : EReal) b q e := by
  rw [pay_apply]
  have hsc : sc x0 x1 r
      = score (fun b s e => A0 (ix3 b s e)) (fun b k e => A1 (ix3 b e k)) ((1 / 8 : ℝ) : EReal) b q := funext fun k => by
    unfold sc score
    exact congrArg (· * ((1 / 8 : ℝ) : EReal)) (Finset.sum_congr rfl fun e' _ => by rw [h0 e', h1 e' k])
  have hwt : ∀ k : Fin 4096, wt x0 x1 r k
      = weight (fun b s e => A0 (ix3 b s e)) (fun b k e => A1 (ix3 b e k)) ((1 / 8 : ℝ) : EReal) b q k := fun k => by
    unfold wt weight rowMax
    rw [hsc]
  unfold attnK
  exact congrArg₂ Ideal.div (Finset.sum_congr rfl fun k _ => by rw [hwt k, h2 k]) (Finset.sum_congr rfl fun k _ => hwt k)

end Cert.KernelIdeal.Region1

end
-- ==== Proof.Region1.lean ====
/-
  The attention kernel's pipeline as one whole-array function: over its 4 × 8 grid the call writes, block by block,
  the attention output (normalisation after the sum, scale 1/8) of the three tables it finds — the queries, the
  transposed keys and the values.  Point `(b, qi)` reads rows `512·qi … 512·qi + 511` of batch entry `b` of the queries
  and the whole of batch entry `b` of the keys and of the values, and writes the same rows of batch entry `b` of the
  output; the 32 blocks tile the output.
-/
import proofs.«135418_j61048665145392_2_alg».proof.Proof.Gen.KernelIdeal.Frame
import proofs.«135418_j61048665145392_2_alg».proof.Proof.Region1Pay
import Idealize.ShloMosaic.Lib.Pipeline.Value

noncomputable section

open scoped BigOperators

namespace Cert.KernelIdeal.Region1

open Idealize.ShloMosaic Idealize.ShloMosaic.ValueIdx Idealize.ShloMosaic.TcCoe Cert.KernelIdeal Cert.KernelIdeal.Gen Cert.Attn
open Idealize.ShloMosaic.Pipeline (Dat)

variable (V : (c : Dev nD) → (b : Ref sig .tc) → Buf (Elt Ideal) ((c : Thread nD τ).loc b))

theorem hz : (![0, 0, 0] : Fin 3 → Nat) = fun _ => 0 := funext fun a => by fin_cases a <;> rfl

/-! ## The index maps, decided over the grid -/

/-- At every point the query block and the output block sit at the same block index `(b, qi, 0)`, the key and value
    blocks at `(b, 0, 0)`, with `b` below 4 and `qi` below 8. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 3 ∧ win1_3.index t (1 : Fin 3) ≤ 7 :=
  (by decide +kernel : ∀ t : Fin grid1.N, _)

/-- Every block index `(b, qi, 0)` of the output is some point's. -/
theorem idx_onto : ∀ (q0 : Fin 4) (q1 : Fin 8), ∃ t : Fin cfg1.N,
    win1_3.index t (0 : Fin 3) = q0.val ∧ win1_3.index t (1 : Fin 3) = q1.val ∧ win1_3.index t (2 : Fin 3) = 0 :=
  (by decide +kernel : ∀ (q0 : Fin 4) (q1 : Fin 8), ∃ t : Fin grid1.N, _)

/-! ## The whole-array function -/

/-- The output array the call leaves: attention over the three arrays the region finds. -/
abbrev attnArr (c : Dev nD) : S4x4096x64.Idx → EReal := fun i =>
  attnK (fun b s e => (V c (Pipeline.arrRef spec1 0) : S4x4096x64.Idx → EReal) (ix3 b s e))
    (fun b k e => (V c (Pipeline.arrRef spec1 1) : S4x64x4096.Idx → EReal) (ix3 b e k))
    (fun b s e => (V c (Pipeline.arrRef spec1 2) : S4x4096x64.Idx → EReal) (ix3 b s e))
    ((1 / 8 : ℝ) : EReal) (i 0) (i 1) (i 2)

/-! ## What a point writes back -/

/-- WHAT POINT `t` WRITES BACK is block `t` of `attnArr`. -/
theorem flushed_eq (c : Dev nD) (t : Fin cfg1.N) :
    (dat1 (F := Ideal) V c).flushed 3 t = ((cfg1.win 3).blk t).view.read (Elt Ideal) (attnArr V c) := by
  show (cfg1.win 3).cut (grid1.coords t) ((dat1 (F := Ideal) V c).after 3 t) = _
  rw [after1_3]
  unfold out1_3
  rw [View.canon_unit_zero hz]
  simp only [View.ld_unit_zero (S := S1x512x64) hz, View.ld_unit_zero (S := S1x64x4096) hz, View.ld_unit_zero (S := S1x4096x64) hz]
  obtain ⟨e00, e01, e02, e32, e10, e11, e12, e20, e21, e22, b3, b7⟩ := idx_facts t
  funext j
  have hj0 : (j 0).val < 1 := (j 0).isLt
  have hj1 : (j 1).val < 512 := (j 1).isLt
  have hj2 : (j 2).val < 64 := (j 2).isLt
  -- the index inside the block, and the array index under it, by coordinates
  have hL : (cfg1.win 3).xinj (grid1.coords t) j = ix3 (0 : Fin 1) (⟨(j 1).val, hj1⟩ : Fin 512) (⟨(j 2).val, hj2⟩ : Fin 64) :=
    funext fun a => Fin.ext (by
      match a with
      | ⟨0, _⟩ => show (j 0).val = 0; omega
      | ⟨1, _⟩ => rfl
      | ⟨2, _⟩ => rfl)
  have hR : ((cfg1.win 3).blk t).view.emb j
      = ix3 (⟨win1_3.index t (0 : Fin 3), by omega⟩ : Fin 4) (⟨win1_3.index t (1 : Fin 3) * 512 + (j 1).val, by omega⟩ : Fin 4096)
          (⟨(j 2).val, hj2⟩ : Fin 64) :=
    funext fun a => Fin.ext (by
      match a with
      | ⟨0, _⟩ => show win1_3.index t (0 : Fin 3) * 1 + 1 * (j 0).val = win1_3.index t (0 : Fin 3); omega
      | ⟨1, _⟩ => show win1_3.index t (1 : Fin 3) * 512 + 1 * (j 1).val = win1_3.index t (1 : Fin 3) * 512 + (j 1).val; omega
      | ⟨2, _⟩ => show win1_3.index t (2 : Fin 3) * 64 + 1 * (j 2).val = (j 2).val; omega)
  show k1_pay1 (F := Ideal) (iblk1 V c 0 t) (iblk1 V c 1 t) (iblk1 V c 2 t) ((cfg1.win 3).xinj (grid1.coords t) j)
    = attnArr V c (((cfg1.win 3).blk t).view.emb j)
  rw [hL, hR]
  refine pay_eq_attnK (V c (Pipeline.arrRef spec1 0) : S4x4096x64.Idx → EReal) (V c (Pipeline.arrRef spec1 1) : S4x64x4096.Idx → EReal)
    (V c (Pipeline.arrRef spec1 2) : S4x4096x64.Idx → EReal) _ _ _ _ _ _ _ ?_ ?_ ?_
  · -- the query block: rows `512·qi + r` of batch entry `b`
    intro e'
    show (V c (Pipeline.arrRef spec1 0) : S4x4096x64.Idx → EReal) (((cfg1.win 0).blk t).view.emb (ix3 (0 : Fin 1) (⟨(j 1).val, hj1⟩ : Fin 512) e')) = _
    refine congrArg _ (funext fun a => Fin.ext ?_)
    match a with
    | ⟨0, _⟩ => show win1_0.index t (0 : Fin 3) * 1 + 1 * 0 = win1_3.index t (0 : Fin 3); omega
    | ⟨1, _⟩ => show win1_0.index t (1 : Fin 3) * 512 + 1 * (j 1).val = win1_3.index t (1 : Fin 3) * 512 + (j 1).val; omega
    | ⟨2, _⟩ => show win1_0.index t (2 : Fin 3) * 64 + 1 * e'.val = e'.val; omega
  · -- the key block: the whole of batch entry `b`
    intro e' k
    show (V c (Pipeline.arrRef spec1 1) : S4x64x4096.Idx → EReal) (((cfg1.win 1).blk t).view.emb (ix3 (0 : Fin 1) e' k)) = _
    refine congrArg _ (funext fun a => Fin.ext ?_)
    match a with
    | ⟨0, _⟩ => show win1_1.index t (0 : Fin 3) * 1 + 1 * 0 = win1_3.index t (0 : Fin 3); omega
    | ⟨1, _⟩ => show win1_1.index t (1 : Fin 3) * 64 + 1 * e'.val = e'.val; omega
    | ⟨2, _⟩ => show win1_1.index t (2 : Fin 3) * 4096 + 1 * k.val = k.val; omega
  · -- the value block: the whole of batch entry `b`
    intro k
    show (V c (Pipeline.arrRef spec1 2) : S4x4096x64.Idx → EReal) (((cfg1.win 2).blk t).view.emb (ix3 (0 : Fin 1) k (⟨(j 2).val, hj2⟩ : Fin 64))) = _
    refine congrArg _ (funext fun a => Fin.ext ?_)
    match a with
    | ⟨0, _⟩ => show win1_2.index t (0 : Fin 3) * 1 + 1 * 0 = win1_3.index t (0 : Fin 3); omega
    | ⟨1, _⟩ => show win1_2.index t (1 : Fin 3) * 4096 + 1 * k.val = k.val; omega
    | ⟨2, _⟩ => show win1_2.index t (2 : Fin 3) * 64 + 1 * (j 2).val = (j 2).val; omega

/-! ## The blocks tile the output -/

/-- An index of the output is in point `t`'s block iff each coordinate is in the block's range on its axis. -/
theorem mem_blk (t : Fin cfg1.N) (i : S4x4096x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v8).slice (win1_3.rect t)).set ↔ _
  rw [View.set_slice_whole, Rect.mem_set_unit]
  exact Iff.rfl

/-- Row `q` of batch entry `b` is in the block of the point `(b, q / 512)`, and every point writes back. -/
theorem cover (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  obtain ⟨t, q0, q1, q2⟩ := idx_onto ⟨(i 0).val, hi0⟩ ⟨(i 1).val / 512, by omega⟩
  refine ⟨t, flush1_3 t, ?_⟩
  rw [mem_blk]
  intro a
  match a with
  | ⟨0, _⟩ =>
    show win1_3.index t (0 : Fin 3) * 1 ≤ (i 0).val ∧ (i 0).val < win1_3.index t (0 : Fin 3) * 1 + 1
    simp only at q0; omega
  | ⟨1, _⟩ =>
    show win1_3.index t (1 : Fin 3) * 512 ≤ (i 1).val ∧ (i 1).val < win1_3.index t (1 : Fin 3) * 512 + 512
    simp only at q1; omega
  | ⟨2, _⟩ =>
    show win1_3.index t (2 : Fin 3) * 64 ≤ (i 2).val ∧ (i 2).val < win1_3.index t (2 : Fin 3) * 64 + 64
    omega

/-! ## The array after the call -/

/-- THE OUTPUT ARRAY after the call is `attnArr` of the arrays the region finds. -/
theorem out_eq (c : Dev nD) : (dat1 (F := Ideal) V c).arrAt 3 cfg1.N = attnArr V c :=
  (dat1 (F := Ideal) V c).arrAt_eq_of_cover 3 (attnArr V c) (fun t _ => flushed_eq V c t) cover

/-- The same at an index given by its coordinates: attention over the queries, the transposed keys and the values
    as the region finds them, normalised after the sum, with scale `1/8`. -/
theorem out_apply (c : Dev nD) (b : Fin 4) (q : Fin 4096) (e : Fin 64) :
    (dat1 (F := Ideal) V c).arrAt 3 cfg1.N (ix3 b q e)
      = attnK (fun b s e => V c (Pipeline.arrRef spec1 0) (ix3 b s e))
          (fun b k e => V c (Pipeline.arrRef spec1 1) (ix3 b e k))
          (fun b s e => V c (Pipeline.arrRef spec1 2) (ix3 b s e))
          ((1 / 8 : ℝ) : EReal) b q e :=
  congrFun (out_eq V c) (ix3 b q e)

end Cert.KernelIdeal.Region1

end
-- ==== Proof.HostOps.lean ====
/-
  The host operations before the first kernel call, read at an index.

  Before the first call the host joins the query and value weight matrices along their rows and transposes the result
  (so column `e` of the fused `[512, 128]` matrix is row `e` of the first matrix for `e < 64` and row `e - 64` of the
  second otherwise), joins the two bias vectors the same way and lays them out as one row, narrows the key weight
  (the identity on extended reals) and lays the key bias out as one column.  The input sequence is written by no
  host operation.  Each buffer is first identified with the term of the operations that wrote it, and that term is
  then read at an index by the layout lemmas for a transpose, a two-piece concatenation and a shape cast.
-/
import proofs.«135418_j61048665145392_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.ValueIdx

variable (m : (ℓ : Loc nD τ sig) → Buf (Elt Ideal) ℓ) (ρ : Dev nD → PrngReg)

/-! ## The first call's window arrays -/

theorem arrRef0_0 : Pipeline.arrRef spec0 0 = main_arg0 := rfl
theorem arrRef0_1 : Pipeline.arrRef spec0 1 = main_v2 := rfl
theorem arrRef0_2 : Pipeline.arrRef spec0 2 = main_v4 := rfl
theorem arrRef0_3 : Pipeline.arrRef spec0 3 = main_v5 := rfl
theorem arrRef0_4 : Pipeline.arrRef spec0 4 = main_v6 := rfl

/-! ## Each buffer as the term of the host operations that wrote it -/

/-- No host operation writes the input sequence. -/
theorem v1_x (c : Dev nD) : V1 m ρ c main_arg0 = m ((c : Thread nD τ).loc main_arg0) := by
  show StableHlo.after hostOps0 (W0 m ρ c) (Proc.devRef .tc main_arg0) = _
  after_results

/-- The fused weight: the two weight matrices stacked along the rows, transposed, narrowed. -/
theorem v1_wqv_term (c : Dev nD) :
    (V1 m ρ c main_v2 : S512x128.Idx → EReal)
      = truncf (F := Ideal) .bf16 (transpose S512x128 [1, 0]
          (concatenate S128x512 0 [⟨S64x512, (m ((c : Thread nD τ).loc main_arg1) : S64x512.Idx → EReal)⟩,
            ⟨S64x512, (m ((c : Thread nD τ).loc main_arg5) : S64x512.Idx → EReal)⟩] concatenates_S64x512_S64x512_S128x512_d0)
          transposes_S128x512_S512x128_1_0) bitsLt_bf16_f32 := by
  show StableHlo.after hostOps0 (W0 m ρ c) (Proc.devRef .tc main_v2) = _
  after_results

/-- The fused bias: the two bias vectors joined, as one row. -/
theorem v1_bqv_term (c : Dev nD) :
    (V1 m ρ c main_v4 : S1x128.Idx → EReal)
      = shapeCast S1x128 (concatenate S128 0 [⟨S64, (m ((c : Thread nD τ).loc main_arg2) : S64.Idx → EReal)⟩,
            ⟨S64, (m ((c : Thread nD τ).loc main_arg6) : S64.Idx → EReal)⟩] concatenates_S64_S64_S128_d0)
          shapeCasts_S128_S1x128 := by
  show StableHlo.after hostOps0 (W0 m ρ c) (Proc.devRef .tc main_v4) = _
  after_results
  rfl

/-- The key weight, narrowed. -/
theorem v1_wk_term (c : Dev nD) :
    (V1 m ρ c main_v5 : S64x512.Idx → EReal)
      = truncf (F := Ideal) .bf16 (m ((c : Thread nD τ).loc main_arg3) : S64x512.Idx → EReal) bitsLt_bf16_f32 := by
  show StableHlo.after hostOps0 (W0 m ρ c) (Proc.devRef .tc main_v5) = _
  after_results

/-- The key bias, as one column. -/
theorem v1_bk_term (c : Dev nD) :
    (V1 m ρ c main_v6 : S64x1.Idx → EReal)
      = shapeCast S64x1 (m ((c : Thread nD τ).loc main_arg4) : S64.Idx → EReal) shapeCasts_S64_S64x1 := by
  show StableHlo.after hostOps0 (W0 m ρ c) (Proc.devRef .tc main_v6) = _
  after_results
  rfl

/-! ## Read at an index -/

/-- Column `e < 64` of the fused weight is row `e` of the first weight matrix. -/
theorem v1_wqv_left (c : Dev nD) (k : Fin 512) (e : Fin 64) :
    (V1 m ρ c main_v2 : S512x128.Idx → EReal) (ix2 k (⟨e.val, by omega⟩ : Fin 128))
      = (m ((c : Thread nD τ).loc main_arg1) : S64x512.Idx → EReal) (ix2 e k) := by
  rw [v1_wqv_term]
  refine (truncf_apply (φ := .f32) (ψ := .bf16) _ bitsLt_bf16_f32 _).trans ?_
  refine (transpose_ix2_apply _ _ _ _).trans ?_
  refine concatenate_pair_apply_left (t := S128x512) (s₁ := S64x512) (s₂ := S64x512) (0 : Fin 2) _ _ _ _ rfl (ix2 e k) ?_
  intro b
  match b with
  | ⟨0, _⟩ => rfl
  | ⟨1, _⟩ => rfl

/-- Column `64 + e` of the fused weight is row `e` of the second weight matrix. -/
theorem v1_wqv_right (c : Dev nD) (k : Fin 512) (e : Fin 64) :
    (V1 m ρ c main_v2 : S512x128.Idx → EReal) (ix2 k (⟨64 + e.val, by omega⟩ : Fin 128))
      = (m ((c : Thread nD τ).loc main_arg5) : S64x512.Idx → EReal) (ix2 e k) := by
  rw [v1_wqv_term]
  refine (truncf_apply (φ := .f32) (ψ := .bf16) _ bitsLt_bf16_f32 _).trans ?_
  refine (transpose_ix2_apply _ _ _ _).trans ?_
  refine concatenate_pair_apply_right (t := S128x512) (s₁ := S64x512) (s₂ := S64x512) (0 : Fin 2) _ _ _ _ rfl rfl (ix2 e k) ?_ ?_
  · intro b hb
    match b, hb with
    | ⟨0, _⟩, hb => exact absurd rfl hb
    | ⟨1, _⟩, _ => rfl
  · show e.val + 64 = 64 + e.val
    omega

/-- Entry `e < 64` of the fused bias is entry `e` of the first bias. -/
theorem v1_bqv_left (c : Dev nD) (e : Fin 64) :
    (V1 m ρ c main_v4 : S1x128.Idx → EReal) (ix2 (0 : Fin 1) (⟨e.val, by omega⟩ : Fin 128))
      = (m ((c : Thread nD τ).loc main_arg2) : S64.Idx → EReal) (ix1 e) := by
  rw [v1_bqv_term]
  refine (shapeCast_a_1a_apply _ _ _ _).trans ?_
  refine concatenate_pair_apply_left (t := S128) (s₁ := S64) (s₂ := S64) (0 : Fin 1) _ _ _ _ rfl (ix1 e) ?_
  intro b
  match b with
  | ⟨0, _⟩ => rfl

/-- Entry `64 + e` of the fused bias is entry `e` of the second bias. -/
theorem v1_bqv_right (c : Dev nD) (e : Fin 64) :
    (V1 m ρ c main_v4 : S1x128.Idx → EReal) (ix2 (0 : Fin 1) (⟨64 + e.val, by omega⟩ : Fin 128))
      = (m ((c : Thread nD τ).loc main_arg6) : S64.Idx → EReal) (ix1 e) := by
  rw [v1_bqv_term]
  refine (shapeCast_a_1a_apply _ _ _ _).trans ?_
  refine concatenate_pair_apply_right (t := S128) (s₁ := S64) (s₂ := S64) (0 : Fin 1) _ _ _ _ rfl rfl (ix1 e) ?_ ?_
  · intro b hb
    match b, hb with
    | ⟨0, _⟩, hb => exact absurd rfl hb
  · show e.val + 64 = 64 + e.val
    omega

/-- The key weight is read where it was launched. -/
theorem v1_wk (c : Dev nD) (e : Fin 64) (k : Fin 512) :
    (V1 m ρ c main_v5 : S64x512.Idx → EReal) (ix2 e k) = (m ((c : Thread nD τ).loc main_arg3) : S64x512.Idx → EReal) (ix2 e k) := by
  rw [v1_wk_term]
  exact truncf_apply _ _ _

/-- Row `e` of the key bias column is entry `e` of the key bias. -/
theorem v1_bk (c : Dev nD) (e : Fin 64) :
    (V1 m ρ c main_v6 : S64x1.Idx → EReal) (ix2 e (0 : Fin 1)) = (m ((c : Thread nD τ).loc main_arg4) : S64.Idx → EReal) (ix1 e) := by
  rw [v1_bk_term]
  refine shapeCast_apply _ _ _ (ix1 e) ?_
  rw [Shape.rowMajor_val_one, Shape.rowMajor_val_two]
  show e.val = e.val * 1 + 0
  omega

end Cert.KernelIdeal.Host

end
-- ==== Proof.KValue.lean ====
/-
  The idealized kernel's result, element by element.  The second pallas_call leaves in the result array the attention
  of the three arrays it finds; those are what the first pallas_call left — the projections of `x` by the stacked
  weights the host operations prepared; and those weights, read back through the concatenation, the transposition and
  the reshapes, are the arguments' own entries.  Composed: the result is the attention, in the kernel's arrangement,
  of the query, key and value projections of the arguments.
-/
import proofs.«135418_j61048665145392_2_alg».proof.Proof.Region0V
import proofs.«135418_j61048665145392_2_alg».proof.Proof.Region0K
import proofs.«135418_j61048665145392_2_alg».proof.Proof.Region1
import proofs.«135418_j61048665145392_2_alg».proof.Proof.HostOps
import proofs.«135418_j61048665145392_2_alg».proof.Proof.Spec

set_option maxRecDepth 16384

noncomputable section

open scoped BigOperators

namespace Cert.KernelIdeal.Val

open Cert.KernelIdeal Cert.KernelIdeal.Gen Cert.Attn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The query array the second call finds: the query projection of the arguments. -/
theorem q_tab (c : Dev nD) (b : Fin 4) (s : Fin 4096) (e : Fin 64) :
    (V2 m ρ c (Pipeline.arrRef spec1 0) : S4x4096x64.Idx → EReal) (ix3 b s e)
      = lin (m ((c : Thread nD τ).loc main_arg0)) (m ((c : Thread nD τ).loc main_arg1)) (m ((c : Thread nD τ).loc main_arg2)) b s e := by
  refine (congrFun (W2_arr m ρ c 5) (ix3 b s e)).trans ?_
  refine (Region0.q_arr (V1 m ρ) c b s e).trans ?_
  unfold Region0.proj lin
  refine congrArg₂ (· + ·) (Finset.sum_congr rfl fun k _ => congrArg₂ (· * ·) ?_ ?_) ?_
  · exact congrFun (Host.v1_x m ρ c) (ix3 b s k)
  · exact Host.v1_wqv_left m ρ c k e
  · exact Host.v1_bqv_left m ρ c e

/-- The value array the second call finds: the value projection of the arguments. -/
theorem v_tab (c : Dev nD) (b : Fin 4) (s : Fin 4096) (e : Fin 64) :
    (V2 m ρ c (Pipeline.arrRef spec1 2) : S4x4096x64.Idx → EReal) (ix3 b s e)
      = lin (m ((c : Thread nD τ).loc main_arg0)) (m ((c : Thread nD τ).loc main_arg5)) (m ((c : Thread nD τ).loc main_arg6)) b s e := by
  refine (congrFun (W2_arr m ρ c 6) (ix3 b s e)).trans ?_
  refine (Region0.v_arr (V1 m ρ) c b s e).trans ?_
  unfold Region0.proj lin
  refine congrArg₂ (· + ·) (Finset.sum_congr rfl fun k _ => congrArg₂ (· * ·) ?_ ?_) ?_
  · exact congrFun (Host.v1_x m ρ c) (ix3 b s k)
  · exact Host.v1_wqv_right m ρ c k e
  · exact Host.v1_bqv_right m ρ c e

/-- The transposed key array the second call finds: the key projection of the arguments, transposed, each product's
    factors in the order the kernel multiplies them. -/
theorem kt_tab (c : Dev nD) (b : Fin 4) (s : Fin 4096) (e : Fin 64) :
    (V2 m ρ c (Pipeline.arrRef spec1 1) : S4x64x4096.Idx → EReal) (ix3 b e s)
      = linT (m ((c : Thread nD τ).loc main_arg0)) (m ((c : Thread nD τ).loc main_arg3)) (m ((c : Thread nD τ).loc main_arg4)) b s e := by
  refine (congrFun (W2_arr m ρ c 7) (ix3 b e s)).trans ?_
  refine (Region0.kt_arr (V1 m ρ) c b e s).trans ?_
  unfold Region0.projT linT
  refine congrArg₂ (· + ·) (Finset.sum_congr rfl fun k _ => congrArg₂ (· * ·) ?_ ?_) ?_
  · exact Host.v1_wk m ρ c e k
  · exact congrFun (Host.v1_x m ρ c) (ix3 b s k)
  · exact Host.v1_bk m ρ c e

/-- THE RESULT: the attention of the arguments' projections, normalised after the weighted sum. -/
theorem value (c : Dev nD) (b : Fin 4) (q : Fin 4096) (e : Fin 64) :
    (W3 m ρ c (Proc.devRef .tc main_v8) : S4x4096x64.Idx → EReal) (ix3 b q e)
      = attnK (lin (m ((c : Thread nD τ).loc main_arg0)) (m ((c : Thread nD τ).loc main_arg1)) (m ((c : Thread nD τ).loc main_arg2)))
          (linT (m ((c : Thread nD τ).loc main_arg0)) (m ((c : Thread nD τ).loc main_arg3)) (m ((c : Thread nD τ).loc main_arg4)))
          (lin (m ((c : Thread nD τ).loc main_arg0)) (m ((c : Thread nD τ).loc main_arg5)) (m ((c : Thread nD τ).loc main_arg6)))
          ((1 / 8 : ℝ) : EReal) b q e := by
  refine (congrFun (W3_arr m ρ c 3) (ix3 b q e)).trans ?_
  refine (Region1.out_apply (V2 m ρ) c b q e).trans ?_
  have hQ : (fun (b : Fin 4) (s : Fin 4096) (e : Fin 64) => (V2 m ρ c (Pipeline.arrRef spec1 0) : S4x4096x64.Idx → EReal) (ix3 b s e))
      = lin (m ((c : Thread nD τ).loc main_arg0)) (m ((c : Thread nD τ).loc main_arg1)) (m ((c : Thread nD τ).loc main_arg2)) :=
    funext fun b => funext fun s => funext fun e => q_tab m ρ c b s e
  have hK : (fun (b : Fin 4) (k : Fin 4096) (e : Fin 64) => (V2 m ρ c (Pipeline.arrRef spec1 1) : S4x64x4096.Idx → EReal) (ix3 b e k))
      = linT (m ((c : Thread nD τ).loc main_arg0)) (m ((c : Thread nD τ).loc main_arg3)) (m ((c : Thread nD τ).loc main_arg4)) :=
    funext fun b => funext fun k => funext fun e => kt_tab m ρ c b k e
  have hV : (fun (b : Fin 4) (s : Fin 4096) (e : Fin 64) => (V2 m ρ c (Pipeline.arrRef spec1 2) : S4x4096x64.Idx → EReal) (ix3 b s e))
      = lin (m ((c : Thread nD τ).loc main_arg0)) (m ((c : Thread nD τ).loc main_arg5)) (m ((c : Thread nD τ).loc main_arg6)) :=
    funext fun b => funext fun s => funext fun e => v_tab m ρ c b s e
  exact congrArg₂ (fun f g => attnK f g _ _ b q e) hQ hK |>.trans (congrArg (fun h => attnK _ _ h _ b q e) hV)

end Cert.KernelIdeal.Val

end
-- ==== Proof.RefValue.lean ====
/-
  The reference program's value at an index: its result at `(b, q, e)` is attention with the normalisation inside the
  weighted sum (`attnR`), over the three projections `lin x W bias` and the scale `1/8`.

  Bottom-up, one stage at a time, each at explicit coordinates: the projections (a contraction plus a broadcast bias),
  the scaled scores, the row maximum (a fold of `max` from `⊥`), the weights `exp (s - m)`, their row sum, the
  normalised weights, and the final contraction with the value rows.
-/
import proofs.«135418_j61048665145392_2_alg».proof.Proof.Gen.ReferenceIdeal.Read
import proofs.«135418_j61048665145392_2_alg».proof.Proof.Spec
import proofs.«135418_j61048665145392_2_alg».proof.Proof.Consts
import Idealize.ShloMosaic.Lib.ValueIdx
import Idealize.ShloMosaic.PureOps.Ideal.Laws
import Idealize.ShloMosaic.PureOps.Reduce
import Idealize.ShloMosaic.Lib.Pipeline.Value

noncomputable section

open scoped BigOperators

namespace Cert.Attn.Ref

open Idealize.ShloMosaic Idealize.ShloMosaic.ValueIdx Cert.Attn Cert.ReferenceIdeal Cert.ReferenceIdeal.Read

/-- The input array `[4, 4096, 512]`. -/
abbrev TX := (⟨S4x4096x512, .f32⟩ : BufTy).Contents (Elt Ideal)
/-- A weight matrix `[64, 512]`. -/
abbrev TW := (⟨S64x512, .f32⟩ : BufTy).Contents (Elt Ideal)
/-- A bias vector `[64]`. -/
abbrev TB := (⟨S64, .f32⟩ : BufTy).Contents (Elt Ideal)

/-! ## The three projections -/

/-- `Q[b,s,e] = x[b,s,:] · Wq[e,:] + bq[e]`. -/
theorem v3_apply (x0 : TX) (x1 : TW) (x2 : TB) (b : Fin 4) (s : Fin 4096) (e : Fin 64) :
    val_main_v3 (F := Ideal) x0 x1 x2 (ix3 b s e) = lin x0 x1 x2 b s e := by
  rw [val_main_v3_apply, val_main_v0_apply, val_main_v2_apply, val_main_v1_apply]
  have el : ∀ k : Fin 512, lidx_main_v0 (ix3 b s e) k = ix3 b s k := fun k => funext fun a => by
    match a with | ⟨0, _⟩ => rfl | ⟨1, _⟩ => rfl | ⟨2, _⟩ => rfl
  have er : ∀ k : Fin 512, ridx_main_v0 (ix3 b s e) k = ix2 e k := fun k => funext fun a => by
    match a with | ⟨0, _⟩ => rfl | ⟨1, _⟩ => rfl
  have eb : idx_main_v1 (idx_main_v2 (ix3 b s e)) = ix1 e := funext fun a => by
    match a with | ⟨0, _⟩ => rfl
  unfold lin
  rw [eb, Ideal.addf_def]
  exact congrArg (· + x2 (ix1 e)) (Finset.sum_congr rfl fun k _ => by rw [el, er])

/-- `K[b,s,e] = x[b,s,:] · Wk[e,:] + bk[e]`. -/
theorem v7_apply (x0 : TX) (x3 : TW) (x4 : TB) (b : Fin 4) (s : Fin 4096) (e : Fin 64) :
    val_main_v7 (F := Ideal) x0 x3 x4 (ix3 b s e) = lin x0 x3 x4 b s e := by
  rw [val_main_v7_apply, val_main_v4_apply, val_main_v6_apply, val_main_v5_apply]
  have el : ∀ k : Fin 512, lidx_main_v4 (ix3 b s e) k = ix3 b s k := fun k => funext fun a => by
    match a with | ⟨0, _⟩ => rfl | ⟨1, _⟩ => rfl | ⟨2, _⟩ => rfl
  have er : ∀ k : Fin 512, ridx_main_v4 (ix3 b s e) k = ix2 e k := fun k => funext fun a => by
    match a with | ⟨0, _⟩ => rfl | ⟨1, _⟩ => rfl
  have eb : idx_main_v5 (idx_main_v6 (ix3 b s e)) = ix1 e := funext fun a => by
    match a with | ⟨0, _⟩ => rfl
  unfold lin
  rw [eb, Ideal.addf_def]
  exact congrArg (· + x4 (ix1 e)) (Finset.sum_congr rfl fun k _ => by rw [el, er])

/-- `V[b,s,e] = x[b,s,:] · Wv[e,:] + bv[e]`. -/
theorem v11_apply (x0 : TX) (x5 : TW) (x6 : TB) (b : Fin 4) (s : Fin 4096) (e : Fin 64) :
    val_main_v11 (F := Ideal) x0 x5 x6 (ix3 b s e) = lin x0 x5 x6 b s e := by
  rw [val_main_v11_apply, val_main_v8_apply, val_main_v10_apply, val_main_v9_apply]
  have el : ∀ k : Fin 512, lidx_main_v8 (ix3 b s e) k = ix3 b s k := fun k => funext fun a => by
    match a with | ⟨0, _⟩ => rfl | ⟨1, _⟩ => rfl | ⟨2, _⟩ => rfl
  have er : ∀ k : Fin 512, ridx_main_v8 (ix3 b s e) k = ix2 e k := fun k => funext fun a => by
    match a with | ⟨0, _⟩ => rfl | ⟨1, _⟩ => rfl
  have eb : idx_main_v9 (idx_main_v10 (ix3 b s e)) = ix1 e := funext fun a => by
    match a with | ⟨0, _⟩ => rfl
  unfold lin
  rw [eb, Ideal.addf_def]
  exact congrArg (· + x6 (ix1 e)) (Finset.sum_congr rfl fun k _ => by rw [el, er])

/-! ## The scaled scores -/

/-- The scale `1/8`, as an extended real. -/
abbrev c8 : EReal := ((1 / 8 : ℝ) : EReal)

/-- The broadcast scale is `1 / √64 = 1/8` everywhere. -/
theorem v15_apply (i : S4x4096x4096.Idx) : val_main_v15 (F := Ideal) i = c8 := by
  rw [val_main_v15_apply, val_main_v13_apply, val_main_v12_apply, val_main_cst_apply, val_main_cst_0_apply]
  exact Consts.ref_scale

/-- The score of query row `q` against key row `k`. -/
theorem v16_apply (x0 : TX) (x1 : TW) (x2 : TB) (x3 : TW) (x4 : TB) (b : Fin 4) (q k : Fin 4096) :
    val_main_v16 (F := Ideal) x0 x1 x2 x3 x4 (ix3 b q k) = score (lin x0 x1 x2) (lin x0 x3 x4) c8 b q k := by
  rw [val_main_v16_apply, val_main_v14_apply, v15_apply, Ideal.mulf_def]
  unfold score
  refine congrArg (· * c8) (Finset.sum_congr rfl fun e _ => ?_)
  have el : lidx_main_v14 (ix3 b q k) e = ix3 b q e := funext fun a => by
    match a with | ⟨0, _⟩ => rfl | ⟨1, _⟩ => rfl | ⟨2, _⟩ => rfl
  have er : ridx_main_v14 (ix3 b q k) e = ix3 b k e := funext fun a => by
    match a with | ⟨0, _⟩ => rfl | ⟨1, _⟩ => rfl | ⟨2, _⟩ => rfl
  rw [el, er, v3_apply, v7_apply]

/-! ## The row maximum -/

/-- Dropping the last axis of `[4, 4096, 4096]` leaves `[4, 4096]`. -/
theorem red_d2 : S4x4096x4096.Reduces [2] S4x4096 := by decide

/-- The reduced index `(b, q)` with the coordinate `k` put back on the last axis is `(b, q, k)`. -/
theorem lift_d2 (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  match c with | ⟨0, _⟩ => rfl | ⟨1, _⟩ => rfl | ⟨2, _⟩ => rfl

/-- A max-reduce over the last axis from `-∞` is, at `(b, q)`, the row's maximum: the fold of `max` from `⊥`. -/
theorem reduce_max_row (y : S4x4096x4096.Idx → EReal) (h' : S4x4096x4096.ReducesTo [2] S4x4096) (hu : 0 < S_.numel)
    (b : Fin 4) (q : Fin 4096) :
    Host.reduce (FloatOps.maximumf (F := Ideal) (φ := .f32)) y (val_main_cst_1 (F := Ideal)) h' hu (ix2 b q)
      = rowMax fun k => y (ix3 b q k) := by
  refine (Host.reduce_eq_fold_single (FloatOps.maximumf (F := Ideal) (φ := .f32)) y (val_main_cst_1 (F := Ideal)) h' red_d2 hu
    (ix2 b q)).trans ?_
  rw [val_main_cst_1_apply, Ideal.ofBits_def, Consts.ofBits_neg_inf]
  unfold rowMax
  have hf : (y ∘ red_d2.lift (ix2 b q)) = fun k : Fin 4096 => y (ix3 b q k) :=
    funext fun k => congrArg y (lift_d2 red_d2 b q k)
  exact congrArg (fun f => Finset.fold max ⊥ f (Finset.univ : Finset (Fin 4096))) hf

/-- The row maximum of the scores. -/
theorem v17_apply (x0 : TX) (x1 : TW) (x2 : TB) (x3 : TW) (x4 : TB) (b : Fin 4) (q : Fin 4096) :
    val_main_v17 (F := Ideal) x0 x1 x2 x3 x4 (ix2 b q) = rowMax (score (lin x0 x1 x2) (lin x0 x3 x4) c8 b q) := by
  unfold val_main_v17
  generalize hy : val_main_v16 (F := Ideal) x0 x1 x2 x3 x4 = y
  refine (reduce_max_row y _ _ b q).trans ?_
  exact congrArg rowMax (funext fun k => by rw [← hy]; exact v16_apply x0 x1 x2 x3 x4 b q k)

/-- The maximum with the broadcast `-∞` changes nothing. -/
theorem v19_apply (x0 : TX) (x1 : TW) (x2 : TB) (x3 : TW) (x4 : TB) (b : Fin 4) (q : Fin 4096) :
    val_main_v19 (F := Ideal) x0 x1 x2 x3 x4 (ix2 b q) = rowMax (score (lin x0 x1 x2) (lin x0 x3 x4) c8 b q) := by
  rw [val_main_v19_apply, val_main_v18_apply, val_main_cst_2_apply, v17_apply, Ideal.ofBits_def, Consts.ofBits_neg_inf,
    Ideal.maximumf_def]
  exact max_bot_left _

/-! ## The weights, their row sum, and the normalised weights -/

/-- The weight of key row `k` for query row `q`: `exp (s_k - max s)`. -/
theorem v23_apply (x0 : TX) (x1 : TW) (x2 : TB) (x3 : TW) (x4 : TB) (b : Fin 4) (q k : Fin 4096) :
    val_main_v23 (F := Ideal) x0 x1 x2 x3 x4 (ix3 b q k) = weight (lin x0 x1 x2) (lin x0 x3 x4) c8 b q k := by
  rw [val_main_v23_apply, val_main_v22_apply, val_main_v21_apply, val_main_v20_apply, v16_apply]
  have ei : idx_main_v20 (idx_main_v21 (ix3 b q k)) = ix2 b q := funext fun a => by
    match a with | ⟨0, _⟩ => rfl | ⟨1, _⟩ => rfl
  rw [ei, v19_apply, Ideal.hostUnary_exp_def, Ideal.subf_def]
  rfl

/-- The row sum of the weights (the sum's initial value is `0`). -/
theorem v24_apply (x0 : TX) (x1 : TW) (x2 : TB) (x3 : TW) (x4 : TB) (b : Fin 4) (q : Fin 4096) :
    val_main_v24 (F := Ideal) x0 x1 x2 x3 x4 (ix2 b q) = ∑ k : Fin 4096, weight (lin x0 x1 x2) (lin x0 x3 x4) c8 b q k := by
  rw [val_main_v24_apply, val_main_cst_3_apply, Ideal.ofBits_def, Consts.ofBits_zero, zero_add]
  refine Finset.sum_congr rfl fun k _ => ?_
  have ei : idx_main_v24 (ix2 b q) k = ix3 b q k := funext fun a => by
    match a with | ⟨0, _⟩ => rfl | ⟨1, _⟩ => rfl | ⟨2, _⟩ => rfl
  rw [ei, v23_apply]

/-- The normalised weight: the weight over the row sum. -/
theorem v27_apply (x0 : TX) (x1 : TW) (x2 : TB) (x3 : TW) (x4 : TB) (b : Fin 4) (q k : Fin 4096) :
    val_main_v27 (F := Ideal) x0 x1 x2 x3 x4 (ix3 b q k)
      = Ideal.div (weight (lin x0 x1 x2) (lin x0 x3 x4) c8 b q k) (∑ k' : Fin 4096, weight (lin x0 x1 x2) (lin x0 x3 x4) c8 b q k') := by
  rw [val_main_v27_apply, val_main_v26_apply, val_main_v25_apply, v23_apply]
  have ei : idx_main_v25 (idx_main_v26 (ix3 b q k)) = ix2 b q := funext fun a => by
    match a with | ⟨0, _⟩ => rfl | ⟨1, _⟩ => rfl
  rw [ei, v24_apply, Ideal.hostDivf_def]

/-! ## The result -/

/-- The reference's result at `(b, q, e)`: attention over the three projections at scale `1/8`, the normalisation
    inside the weighted sum. -/
theorem ref_apply
    (x0 : (⟨Cert.ReferenceIdeal.S4x4096x512, .f32⟩ : BufTy).Contents (Elt Ideal)) (x1 : (⟨Cert.ReferenceIdeal.S64x512, .f32⟩ : BufTy).Contents (Elt Ideal))
    (x2 : (⟨Cert.ReferenceIdeal.S64, .f32⟩ : BufTy).Contents (Elt Ideal)) (x3 : (⟨Cert.ReferenceIdeal.S64x512, .f32⟩ : BufTy).Contents (Elt Ideal))
    (x4 : (⟨Cert.ReferenceIdeal.S64, .f32⟩ : BufTy).Contents (Elt Ideal)) (x5 : (⟨Cert.ReferenceIdeal.S64x512, .f32⟩ : BufTy).Contents (Elt Ideal))
    (x6 : (⟨Cert.ReferenceIdeal.S64, .f32⟩ : BufTy).Contents (Elt Ideal)) (b : Fin 4) (q : Fin 4096) (e : Fin 64) :
    Cert.ReferenceIdeal.Read.val_main_v28 (F := Ideal) x0 x1 x2 x3 x4 x5 x6 (ix3 b q e)
      = attnR (lin x0 x1 x2) (lin x0 x3 x4) (lin x0 x5 x6) ((1 / 8 : ℝ) : EReal) b q e := by
  rw [val_main_v28_apply]
  unfold attnR
  refine Finset.sum_congr rfl fun k _ => ?_
  have el : lidx_main_v28 (ix3 b q e) k = ix3 b q k := funext fun a => by
    match a with | ⟨0, _⟩ => rfl | ⟨1, _⟩ => rfl | ⟨2, _⟩ => rfl
  have er : ridx_main_v28 (ix3 b q e) k = ix3 b k e := funext fun a => by
    match a with | ⟨0, _⟩ => rfl | ⟨1, _⟩ => rfl | ⟨2, _⟩ => rfl
  rw [el, er, v27_apply, v11_apply]

end Cert.Attn.Ref

end
-- ==== Proof.Law.lean ====
/-
  The algebra of the certificate: over real-valued tables the two arrangements of attention agree.

  With real tables every score is real, the row maximum over the nonempty row is one of the scores and so real, every
  weight `exp (s_k - m)` is a positive real, and the sum `l` of the weights is a positive real.  Division by the
  nonzero real `l` is multiplication by `1 / l`, so both arrangements are coercions of real numbers, and in `ℝ`
  `(∑ₖ p_k v_k) · (1/l) = ∑ₖ (p_k · (1/l)) · v_k` is distributivity.
-/
import proofs.«135418_j61048665145392_2_alg».proof.Proof.Spec

noncomputable section

open scoped BigOperators

namespace Cert.Attn

open Idealize.ShloMosaic Idealize.ShloMosaic.ValueIdx

/-- A finite sum of coerced reals is the coercion of the real sum. -/
theorem coe_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} (s : Finset ι) (f : ι → EReal) (h : ∀ k, IsReal (f k)) : IsReal (∑ k ∈ s, f k) := by
  choose g hg using h
  exact ⟨∑ k ∈ s, g k, by rw [← coe_sum]; exact Finset.sum_congr rfl fun k _ => hg k⟩

/-- A linear projection of real tables is real. -/
theorem IsReal.lin {x : (⟨3, ![4, 4096, 512]⟩ : Shape).Idx → EReal} {W : (⟨2, ![64, 512]⟩ : Shape).Idx → EReal}
    {bias : (⟨1, ![64]⟩ : Shape).Idx → EReal} (hx : ∀ i, IsReal (x i)) (hW : ∀ i, IsReal (W i)) (hb : ∀ i, IsReal (bias i))
    (b : Fin 4) (s : Fin 4096) (e : Fin 64) : IsReal (lin x W bias b s e) :=
  IsReal.add (IsReal.sum _ _ fun _ => IsReal.mul (hx _) (hW _)) (hb _)

/-- The fold of `max` from `⊥` over a nonempty family of reals is a real. -/
theorem fold_max_real {ι : Type} (g : ι → ℝ) (t : Finset ι) :
    t = ∅ ∨ ∃ r : ℝ, t.fold max ⊥ (fun k => (g k : EReal)) = (r : EReal) := by
  classical
  induction t using Finset.induction_on with
  | empty => exact Or.inl rfl
  | insert a s ha ih =>
    refine Or.inr ?_
    rw [Finset.fold_insert ha]
    rcases ih with rfl | ⟨r, hr⟩
    · exact ⟨g a, by rw [Finset.fold_empty]; exact max_eq_left bot_le⟩
    · rw [hr]
      rcases max_choice ((g a : ℝ) : EReal) (r : EReal) with h | h
      · exact ⟨g a, h⟩
      · exact ⟨r, h⟩

/-- The row maximum of a real row is real. -/
theorem rowMax_real (g : Fin 4096 → ℝ) : ∃ m : ℝ, rowMax (fun k => (g k : EReal)) = (m : EReal) := by
  rcases fold_max_real g Finset.univ with h | h
  · exact absurd h (Finset.univ_nonempty).ne_empty
  · exact h

/-- The law over an abstract finite index type: for real weights with a nonzero sum and real values,
    normalising after the weighted sum or inside it gives the same extended real. -/
theorem law_real {ι : Type} [Fintype ι] (w v : ι → ℝ) (hl : (∑ k, w k) ≠ 0) :
    Ideal.div (∑ k, (w k : EReal) * (v k : EReal)) (∑ k, (w k : EReal))
      = ∑ k, Ideal.div (w k : EReal) (∑ k', (w k' : EReal)) * (v k : EReal) := by
  rw [coe_sum Finset.univ w]
  simp only [Ideal.div_coe hl, ← EReal.coe_mul]
  rw [coe_sum, coe_sum, ← EReal.coe_mul, Finset.sum_mul]
  exact congrArg _ (Finset.sum_congr rfl fun k _ => by ring)

/-- Over real-valued tables the two arrangements of attention agree. -/
theorem attn_law (Qf Kf Vf : Fin 4 → Fin 4096 → Fin 64 → EReal)
    (hQ : ∀ b s e, IsReal (Qf b s e)) (hK : ∀ b s e, IsReal (Kf b s e)) (hV : ∀ b s e, IsReal (Vf b s e))
    (c : ℝ) (b : Fin 4) (q : Fin 4096) (e : Fin 64) :
    attnK Qf Kf Vf (c : EReal) b q e = attnR Qf Kf Vf (c : EReal) b q e := by
  choose qf hq using hQ
  choose kf hk using hK
  choose vf hv using hV
  -- every score is real
  have hs : score Qf Kf (c : EReal) b q = fun k => (((∑ e, qf b q e * kf b k e) * c : ℝ) : EReal) := by
    funext k
    unfold score
    simp only [hq, hk, ← EReal.coe_mul]
    rw [coe_sum, ← EReal.coe_mul]
  -- so is the row maximum
  obtain ⟨m, hm⟩ := rowMax_real fun k => (∑ e, qf b q e * kf b k e) * c
  -- every weight is a positive real
  have hw : ∀ k, weight Qf Kf (c : EReal) b q k = ((Real.exp ((∑ e, qf b q e * kf b k e) * c - m) : ℝ) : EReal) := by
    intro k
    unfold weight
    rw [hs, hm, ← EReal.coe_sub, Ideal.exp_coe]
  have hl : (∑ k : Fin 4096, Real.exp ((∑ e, qf b q e * kf b k e) * c - m)) ≠ 0 :=
    ne_of_gt (Finset.sum_pos (fun k _ => Real.exp_pos _) Finset.univ_nonempty)
  unfold attnK attnR
  simp only [hw, hv]
  exact law_real (fun k => Real.exp ((∑ e, qf b q e * kf b k e) * c - m)) (fun k => vf b k e) hl

end Cert.Attn

end
-- ==== Proof.Finite.lean ====
/-
  The finiteness of the inputs: where the printed precondition holds, every entry of the seven arrays is a real.

  The precondition joins by `and` seven tests, one per array, each the `and` over all axes of the elementwise
  comparison `|x| < +∞`.  If the conjunction is `1` then every test is `1`, an all-axes `and` that is `1` had a `1` at
  every index, and `max x (-x) < ⊤` excludes both infinities: `max ⊥ (-⊥) = max ⊤ (-⊤) = ⊤`.
-/
import proofs.«135418_j61048665145392_2_alg».proof.Pre_finite_inputs
import proofs.«135418_j61048665145392_2_alg».proof.Proof.Spec
import Idealize.ShloMosaic.Lib.ReduceAll

noncomputable section

namespace Cert.Attn

open Idealize.ShloMosaic Idealize.ShloMosaic.ValueIdx

/-- The pattern of `+∞` denotes the top element. -/
theorem ofBits_pos_inf : Ideal.ofBits .f32 0x7F800000#32 = ⊤ := by
  simp [Ideal.ofBits, Ideal.ieee]

/-- An extended real whose absolute value `max x (-x)` compares below `+∞` is a real. -/
theorem isReal_of_abs_lt (x : EReal)
    (h : Ideal.cmp .olt (max x (-x)) (Ideal.ofBits .f32 0x7F800000#32) = 1#1) : IsReal x := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

/-- The rank-0 shape has one index. -/
instance scalarIdx_subsingleton : Subsingleton Cert.Pre_finite_inputs.S_.Idx := ⟨fun a b => funext fun d => d.elim0⟩

/-- One array's test: if the `and` over all axes of `|a| < +∞` is `1`, every entry of `a` is a real. -/
theorem isReal_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf a)
          (broadcastInDim s ![] hb (constant (F := Ideal) Cert.Pre_finite_inputs.S_ .f32 0x7F800000#32)))
        init hr hu j = 1#1) (i : s.Idx) : IsReal (a i) := by
  have h := Host.reduce_andi_all _ init hr hu j e i
  exact isReal_of_abs_lt (a i) h

/-- Where the printed precondition holds, all seven arrays are real-valued. -/
theorem real_of_pre [Cert.Pre_finite_inputs.Facts]
    (a0 : FVec Ideal Cert.Pre_finite_inputs.S4x4096x512 .f32) (a1 : FVec Ideal Cert.Pre_finite_inputs.S64x512 .f32)
    (a2 : FVec Ideal Cert.Pre_finite_inputs.S64 .f32) (a3 : FVec Ideal Cert.Pre_finite_inputs.S64x512 .f32)
    (a4 : FVec Ideal Cert.Pre_finite_inputs.S64 .f32) (a5 : FVec Ideal Cert.Pre_finite_inputs.S64x512 .f32)
    (a6 : FVec Ideal Cert.Pre_finite_inputs.S64 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have e := congrFun h ValueIdx.ix0
  dsimp only [Cert.Pre_finite_inputs.fn, Cert.Pre_finite_inputs.fn_part1] at e
  simp only [andi, IntOp.andi_eq_one] at e
  obtain ⟨⟨⟨⟨⟨⟨e0, e1⟩, e2⟩, e3⟩, e4⟩, e5⟩, e6⟩ := e
  exact ⟨isReal_of_all a0 _ _ _ _ _ e0, isReal_of_all a1 _ _ _ _ _ e1, isReal_of_all a2 _ _ _ _ _ e2,
    isReal_of_all a3 _ _ _ _ _ e3, isReal_of_all a4 _ _ _ _ _ e4, isReal_of_all a5 _ _ _ _ _ e5,
    isReal_of_all a6 _ _ _ _ _ e6⟩

end Cert.Attn

end
-- ==== Proof.lean ====
/-
  The certificate: a two-call single-head self-attention kernel against its plain reference, over the extended reals.

  The kernel projects `x` to queries, values and (already transposed) keys in a first call, with the query and value
  weights stacked into one matrix, and in a second call forms, per query row, the scaled scores against every key,
  subtracts the row's maximum, exponentiates, and divides the weighted sum of the value rows by the sum of the weights.
  The reference computes the same three projections, scales the scores by `1 / √64`, normalises the weights first and
  then takes the weighted sum.  At the ideal instance the two results are equal: the three projections are the same
  sums (the keys up to the order of each product's factors), the scale `0.125` is `1 / √64`, the two maxima are one
  fold, and for finite inputs every weight and every value is a real number and the sum of the weights a positive
  real, so the division moves across the finite sum.

  The frames of the two printed kernels are the generated ones; the reference's frame is its generated run with the
  result dropped; the idealization rewrote nothing, so `preserves` is trivial.
-/
import proofs.«135418_j61048665145392_2_alg».proof.Defs
import proofs.«135418_j61048665145392_2_alg».proof.Proof.Gen.Kernel
import proofs.«135418_j61048665145392_2_alg».proof.Proof.Gen.Kernel.Skeleton
import proofs.«135418_j61048665145392_2_alg».proof.Proof.Gen.Kernel.Launch
import proofs.«135418_j61048665145392_2_alg».proof.Proof.Gen.Kernel.Points
import proofs.«135418_j61048665145392_2_alg».proof.Proof.Gen.Kernel.Frame
import proofs.«135418_j61048665145392_2_alg».proof.Proof.Gen.KernelIdeal
import proofs.«135418_j61048665145392_2_alg».proof.Proof.Gen.KernelIdeal.Skeleton
import proofs.«135418_j61048665145392_2_alg».proof.Proof.Gen.KernelIdeal.Launch
import proofs.«135418_j61048665145392_2_alg».proof.Proof.Gen.KernelIdeal.Points
import proofs.«135418_j61048665145392_2_alg».proof.Proof.Gen.KernelIdeal.Frame
import proofs.«135418_j61048665145392_2_alg».proof.Proof.Gen.ReferenceIdeal
import proofs.«135418_j61048665145392_2_alg».proof.Proof.Gen.Pre_finite_inputs
import proofs.«135418_j61048665145392_2_alg».proof.Proof.Gen.ReferenceIdeal.Run
import proofs.«135418_j61048665145392_2_alg».proof.Proof.Gen.ReferenceIdeal.Read
import proofs.«135418_j61048665145392_2_alg».proof.Proof.KRun
import proofs.«135418_j61048665145392_2_alg».proof.Proof.KValue
import proofs.«135418_j61048665145392_2_alg».proof.Proof.RefValue
import proofs.«135418_j61048665145392_2_alg».proof.Proof.Law
import proofs.«135418_j61048665145392_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The printed kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, with every input finite, both programs end with the same result array:
    the kernel's is the attention of the projections with the normalisation after the weighted sum, the reference's
    with the normalisation inside it, and on real-valued tables the two arrangements agree. -/
theorem algebraic : Cert.algebraic_KernelIdeal_ReferenceIdeal := by
  intro m ρ m' ρ' hpre hagree
  refine ⟨fun c => Cert.KernelIdeal.Gen.W3 m ρ c (Proc.devRef .tc Cert.KernelIdeal.main_v8),
    Cert.KernelIdeal.Val.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v28_eq, h0, h1, h2, h3, h4, h5, h6]
  funext i
  obtain ⟨b, q, e, rfl⟩ : ∃ (b : Fin 4) (q : Fin 4096) (e : Fin 64), i = ix3 b q e := ⟨i 0, i 1, i 2, eq_ix3 i⟩
  refine (Cert.Attn.Ref.ref_apply _ _ _ _ _ _ _ b q e).trans ?_
  refine Eq.trans ?_ (Cert.KernelIdeal.Val.value m ρ c b q e).symm
  rw [Cert.Attn.linT_eq_lin]
  obtain ⟨r0, r1, r2, r3, r4, r5, r6⟩ := Cert.Attn.real_of_pre _ _ _ _ _ _ _ (hpre c)
  exact (Cert.Attn.attn_law _ _ _ (fun b s e => Cert.Attn.IsReal.lin r0 r1 r2 b s e)
    (fun b s e => Cert.Attn.IsReal.lin r0 r3 r4 b s e) (fun b s e => Cert.Attn.IsReal.lin r0 r5 r6 b s e) (1 / 8) b q e).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
